-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) (main_arg1 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S16x3x1024x1024 .f32 := Host.absf main_arg1
  let main_cst_0 : FVec F S_ .f32 := constant S_ .f32 0x7F800000#32
  let main_v5 : FVec F S16x3x1024x1024 .f32 := broadcastInDim S16x3x1024x1024 ![] bcast_S_S16x3x1024x1024 main_cst_0
  let main_v6 : IVec S16x3x1024x1024 1 := cmpf .olt main_v4 main_v5
  let main_c_1 : IVec S_ 1 := constantI S_ 1 1#1
  let main_v7 : IVec S_ 1 := (fun x v => Host.reduce IntOp.andi x v reducesTo_S16x3x1024x1024_S_d0_1_2_3 h_S_) main_v6 main_c_1
  let main_v8 : IVec S_ 1 := andi main_v3 main_v7
  main_v8
-- ==== Kernel.lean ====
abbrev S16x3x1024x1024 : Shape := ⟨4, ![16, 3, 1024, 1024]⟩
abbrev S16x128 : Shape := ⟨2, ![16, 128]⟩
abbrev S8x1x128x1024 : Shape := ⟨4, ![8, 1, 128, 1024]⟩
abbrev S8x128 : Shape := ⟨2, ![8, 128]⟩
abbrev S8x128x1024 : Shape := ⟨3, ![8, 128, 1024]⟩
abbrev S8x64x2x1024 : Shape := ⟨4, ![8, 64, 2, 1024]⟩
abbrev S8x64x1x1024 : Shape := ⟨4, ![8, 64, 1, 1024]⟩
abbrev S8x64x1024 : Shape := ⟨3, ![8, 64, 1024]⟩
abbrev S8x1024x64 : Shape := ⟨3, ![8, 1024, 64]⟩
abbrev S8x512x2x64 : Shape := ⟨4, ![8, 512, 2, 64]⟩
abbrev S8x512x1x64 : Shape := ⟨4, ![8, 512, 1, 64]⟩
abbrev S8x512x64 : Shape := ⟨3, ![8, 512, 64]⟩
abbrev S8x512 : Shape := ⟨2, ![8, 512]⟩
abbrev S8x512x1 : Shape := ⟨3, ![8, 512, 1]⟩
abbrev S8x1 : Shape := ⟨2, ![8, 1]⟩
abbrev S8x1x1 : Shape := ⟨3, ![8, 1, 1]⟩
abbrev S16x1 : Shape := ⟨2, ![16, 1]⟩
abbrev S16 : Shape := ⟨1, ![16]⟩

abbrev nBuf : Space → Nat
  | .hbm => 5
  | .vmem => 7
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1024x1024, .f32⟩
  | .hbm, ⟨2, _⟩ => ⟨S16x128, .f32⟩
  | .hbm, ⟨3, _⟩ => ⟨S16x1, .f32⟩
  | .hbm, ⟨4, _⟩ => ⟨S16, .f32⟩
  | .local _ .vmem, ⟨0, _⟩ => ⟨S8x1x128x1024, .f32⟩
  | .local _ .vmem, ⟨1, _⟩ => ⟨S8x1x128x1024, .f32⟩
  | .local _ .vmem, ⟨2, _⟩ => ⟨S8x1x128x1024, .f32⟩
  | .local _ .vmem, ⟨3, _⟩ => ⟨S8x1x128x1024, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1x128x1024_S8x1x128x1024_0_0_0_0 : ∀ a, (![0, 0, 0, 0] : Fin 4 → Nat) a + S8x1x128x1024.size a ≤ S8x1x128x1024.size a
  h_S8x1x128x1024 : 0 < S8x1x128x1024.numel
  shapeCasts_S8x1x128x1024_S8x128x1024 : S8x1x128x1024.ShapeCasts S8x128x1024
  shapeCasts_S8x128x1024_S8x64x2x1024 : S8x128x1024.ShapeCasts S8x64x2x1024
  slices_S8x64x2x1024_o0_0_0_0_S8x64x1x1024 : S8x64x2x1024.Slices ![0, 0, 0, 0] S8x64x1x1024
  shapeCasts_S8x64x1x1024_S8x64x1024 : S8x64x1x1024.ShapeCasts S8x64x1024
  slices_S8x64x2x1024_o0_0_1_0_S8x64x1x1024 : S8x64x2x1024.Slices ![0, 0, 1, 0] S8x64x1x1024
  transposes_S8x64x1024_p0_2_1_S8x1024x64 : S8x64x1024.Transposes [0, 2, 1] S8x1024x64
  shapeCasts_S8x1024x64_S8x512x2x64 : S8x1024x64.ShapeCasts S8x512x2x64
  slices_S8x512x2x64_o0_0_0_0_S8x512x1x64 : S8x512x2x64.Slices ![0, 0, 0, 0] S8x512x1x64
  shapeCasts_S8x512x1x64_S8x512x64 : S8x512x1x64.ShapeCasts S8x512x64
  slices_S8x512x2x64_o0_0_1_0_S8x512x1x64 : S8x512x2x64.Slices ![0, 0, 1, 0] S8x512x1x64
  reduces_S8x512x64_S8x512 : S8x512x64.Reduces [2] S8x512
  shapeCasts_S8x512_S8x512x1 : S8x512.ShapeCasts S8x512x1
  reduces_S8x512x1_S8x1 : S8x512x1.Reduces [1] S8x1
  shapeCasts_S8x1_S8x1x1 : S8x1.ShapeCasts S8x1x1
  shapeCasts_S8x1x1_S8x1 : S8x1x1.ShapeCasts S8x1
  shapeCasts_S8x1_S8x1 : S8x1.ShapeCasts S8x1
  broadcasts_S8x1_S8x128 : S8x1.Broadcasts S8x128
  slices_S16x128_S16x1_0_0 : S16x128.Slices ![0, 0] S16x1
  shapeCasts_S16x1_S16 : S16x1.ShapeCasts S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x128x1024.size a ≤ S16x3x1024x1024.size a
  hwx0_0 : ∀ i : grid0.Coords, EltTy.bits .f32 = 32 ∨ (Rect.block (s := S16x3x1024x1024) S8x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x128x1024.size a ≤ S16x3x1024x1024.size a
  hwx0_1 : ∀ i : grid0.Coords, EltTy.bits .f32 = 32 ∨ (Rect.block (s := S16x3x1024x1024) S8x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S16x3x512x2x512x2 : Shape := ⟨6, ![16, 3, 512, 2, 512, 2]⟩
abbrev S16x3x512x1x512x2 : Shape := ⟨6, ![16, 3, 512, 1, 512, 2]⟩
abbrev S16x3x512x512x2 : Shape := ⟨5, ![16, 3, 512, 512, 2]⟩
abbrev S_ : Shape := ⟨0, ![]⟩
abbrev S16x3x512x512x1 : Shape := ⟨5, ![16, 3, 512, 512, 1]⟩
abbrev S16x3x512x512 : Shape := ⟨4, ![16, 3, 512, 512]⟩
abbrev S16x3 : Shape := ⟨2, ![16, 3]⟩
abbrev S16 : Shape := ⟨1, ![16]⟩

abbrev nBuf : Space → Nat
  | .hbm => 66
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1024x1024, .f32⟩
  | .hbm, ⟨2, _⟩ => ⟨S16x3x1024x1024, .f32⟩
  | .hbm, ⟨3, _⟩ => ⟨S16x3x512x2x512x2, .f32⟩
  | .hbm, ⟨4, _⟩ => ⟨S16x3x512x1x512x2, .f32⟩
  | .hbm, ⟨5, _⟩ => ⟨S16x3x512x512x2, .f32⟩
  | .hbm, ⟨6, _⟩ => ⟨S16x3x512x1x512x2, .f32⟩
  | .hbm, ⟨7, _⟩ => ⟨S16x3x512x512x2, .f32⟩
  | .hbm, ⟨8, _⟩ => ⟨S16x3x512x512x2, .f32⟩
  | .hbm, ⟨9, _⟩ => ⟨S_, .f32⟩
  | .hbm, ⟨10, _⟩ => ⟨S16x3x512x512x2, .f32⟩
  | .hbm, ⟨11, _⟩ => ⟨S16x3x512x512x2, .f32⟩
  | .hbm, ⟨12, _⟩ => ⟨S16x3x512x1x512x2, .f32⟩
  | .hbm, ⟨13, _⟩ => ⟨S16x3x512x512x2, .f32⟩
  | .hbm, ⟨14, _⟩ => ⟨S16x3x512x1x512x2, .f32⟩
  | .hbm, ⟨15, _⟩ => ⟨S16x3x512x512x2, .f32⟩
  | .hbm, ⟨16, _⟩ => ⟨S16x3x512x512x2, .f32⟩
  | .hbm, ⟨17, _⟩ => ⟨S_, .f32⟩
  | .hbm, ⟨18, _⟩ => ⟨S16x3x512x512x2, .f32⟩
  | .hbm, ⟨19, _⟩ => ⟨S16x3x512x512x2, .f32⟩
  | .hbm, ⟨20, _⟩ => ⟨S16x3x512x512x1, .f32⟩
  | .hbm, ⟨21, _⟩ => ⟨S16x3x512x512, .f32⟩
  | .hbm, ⟨22, _⟩ => ⟨S16x3x512x512x1, .f32⟩
  | .hbm, ⟨23, _⟩ => ⟨S16x3x512x512, .f32⟩
  | .hbm, ⟨24, _⟩ => ⟨S16x3x512x512, .f32⟩
  | .hbm, ⟨25, _⟩ => ⟨S_, .f32⟩
  | .hbm, ⟨26, _⟩ => ⟨S16x3x512x512, .f32⟩
  | .hbm, ⟨27, _⟩ => ⟨S16x3x512x512, .f32⟩
  | .hbm, ⟨28, _⟩ => ⟨S16x3x512x512x1, .f32⟩
  | .hbm, ⟨29, _⟩ => ⟨S16x3x512x512, .f32⟩
  | .hbm, ⟨30, _⟩ => ⟨S16x3x512x512x1, .f32⟩
  | .hbm, ⟨31, _⟩ => ⟨S16x3x512x512, .f32⟩
  | .hbm, ⟨32, _⟩ => ⟨S16x3x512x512, .f32⟩
  | .hbm, ⟨33, _⟩ => ⟨S_, .f32⟩
  | .hbm, ⟨34, _⟩ => ⟨S16x3x512x512, .f32⟩
  | .hbm, ⟨35, _⟩ => ⟨S16x3x512x512, .f32⟩
  | .hbm, ⟨36, _⟩ => ⟨S16x3x512x512x1, .f32⟩
  | .hbm, ⟨37, _⟩ => ⟨S16x3x512x512, .f32⟩
  | .hbm, ⟨38, _⟩ => ⟨S16x3x512x512x1, .f32⟩
  | .hbm, ⟨39, _⟩ => ⟨S16x3x512x512, .f32⟩
  | .hbm, ⟨40, _⟩ => ⟨S16x3x512x512, .f32⟩
  | .hbm, ⟨41, _⟩ => ⟨S_, .f32⟩
  | .hbm, ⟨42, _⟩ => ⟨S16x3x512x512, .f32⟩
  | .hbm, ⟨43, _⟩ => ⟨S16x3x512x512, .f32⟩
  | .hbm, ⟨44, _⟩ => ⟨S16x3x512x512, .f32⟩
  | .hbm, ⟨45, _⟩ => ⟨S_, .f32⟩
  | .hbm, ⟨46, _⟩ => ⟨S16x3, .f32⟩
  | .hbm, ⟨47, _⟩ => ⟨S_, .f32⟩
  | .hbm, ⟨48, _⟩ => ⟨S16x3, .f32⟩
  | .hbm, ⟨49, _⟩ => ⟨S16x3, .f32⟩
  | .hbm, ⟨50, _⟩ => ⟨S16x3x512x512, .f32⟩
  | .hbm, ⟨51, _⟩ => ⟨S_, .f32⟩
  | .hbm, ⟨52, _⟩ => ⟨S16x3, .f32⟩
  | .hbm, ⟨53, _⟩ => ⟨S_, .f32⟩
  | .hbm, ⟨54, _⟩ => ⟨S16x3, .f32⟩
  | .hbm, ⟨55, _⟩ => ⟨S16x3, .f32⟩
  | .hbm, ⟨56, _⟩ => ⟨S16x3, .f32⟩
  | .hbm, ⟨57, _⟩ => ⟨S16x3x512x512, .f32⟩
  | .hbm, ⟨58, _⟩ => ⟨S_, .f32⟩
  | .hbm, ⟨59, _⟩ => ⟨S16x3, .f32⟩
  | .hbm, ⟨60, _⟩ => ⟨S_, .f32⟩
  | .hbm, ⟨61, _⟩ => ⟨S16x3, .f32⟩
  | .hbm, ⟨62, _⟩ => ⟨S16x3, .f32⟩
  | .hbm, ⟨63, _⟩ => ⟨S16x3, .f32⟩
  | .hbm, ⟨64, _⟩ => ⟨S_, .f32⟩
  | .hbm, ⟨65, _⟩ => ⟨S16, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_cst_9 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  shapeCasts_S16x3x1024x1024_S16x3x512x2x512x2 : S16x3x1024x1024.ShapeCasts S16x3x512x2x512x2
  slices_S16x3x512x2x512x2_S16x3x512x1x512x2_0_0_0_0_0_0 : S16x3x512x2x512x2.Slices ![0, 0, 0, 0, 0, 0] S16x3x512x1x512x2
  shapeCasts_S16x3x512x1x512x2_S16x3x512x512x2 : S16x3x512x1x512x2.ShapeCasts S16x3x512x512x2
  slices_S16x3x512x2x512x2_S16x3x512x1x512x2_0_0_0_1_0_0 : S16x3x512x2x512x2.Slices ![0, 0, 0, 1, 0, 0] S16x3x512x1x512x2
  bcast_S_S16x3x512x512x2 : S_.BroadcastsInDim S16x3x512x512x2 (![] : Fin 0 → Fin S16x3x512x512x2.rank)
  slices_S16x3x512x512x2_S16x3x512x512x1_0_0_0_0_0 : S16x3x512x512x2.Slices ![0, 0, 0, 0, 0] S16x3x512x512x1
  shapeCasts_S16x3x512x512x1_S16x3x512x512 : S16x3x512x512x1.ShapeCasts S16x3x512x512
  slices_S16x3x512x512x2_S16x3x512x512x1_0_0_0_0_1 : S16x3x512x512x2.Slices ![0, 0, 0, 0, 1] S16x3x512x512x1
  bcast_S_S16x3x512x512 : S_.BroadcastsInDim S16x3x512x512 (![] : Fin 0 → Fin S16x3x512x512.rank)
  reducesTo_S16x3x512x512_S16x3_d2_3 : S16x3x512x512.ReducesTo [2, 3] S16x3
  h_S_ : 0 < S_.numel
  bcast_S_S16x3 : S_.BroadcastsInDim S16x3 (![] : Fin 0 → Fin S16x3.rank)
  reducesTo_S16x3_S16_d1 : S16x3.ReducesTo [1] S16

variable [Facts₀]

class Facts : Prop extends Facts₀ where

variable [Facts]
-- ==== Proof.Spec.lean ====
/-
  The loss both programs compute, as functions of the two argument arrays over the extended reals.

  For images `a0, a1 : [16, 3, 1024, 1024]` put `x = a0 - a1`. Every 2×2 patch
  `d p q = x (2h + p) (2w + q)` of a channel gives the three level-one Haar detail coefficients
  (`c` the filter coefficient, the float nearest `1/√2`):
     ad = ((d00 + d10)·c - (d01 + d11)·c)·c   (average over the rows, difference over the columns)
     da = ((d00 - d10)·c + (d01 - d11)·c)·c   (difference over the rows, average over the columns)
     dd = ((d00 - d10)·c - (d01 - d11)·c)·c   (difference both ways).
  The reference takes, per image and channel, the mean of |ad|, of |da| and of |dd| over the 512 × 512
  patches (each a sum from zero divided by 262144), adds the three and sums the channels from zero
  (`refOut`).  The kernel adds |ad| + |da| + |dd| per patch, sums a tile of 64 patch rows × 512 patch
  columns, accumulates the 3 · 8 tiles of an image from zero in grid order, and multiplies the total by
  2⁻¹⁸ (`kernOut`).  This module only states the two; that they agree is the algebra module's.
-/
import Idealize.ShloMosaic.PureOps.Ideal
import Idealize.ShloMosaic.Lib.ValueIdx

noncomputable section

open scoped BigOperators

namespace Cert.Spec

open Idealize.ShloMosaic Idealize.ShloMosaic.ValueIdx

/-- A whole argument array, and one block of it as the kernel's window stages it (8 images, 1 channel, 128 rows). -/
abbrev Arr : Type := (⟨4, ![16, 3, 1024, 1024]⟩ : Shape).Idx → EReal
abbrev Blk : Type := (⟨4, ![8, 1, 128, 1024]⟩ : Shape).Idx → EReal

/-- The Haar filter coefficient: the f32 word nearest `1/√2`, read as the number it denotes. -/
abbrev cw : EReal := Ideal.ofBits .f32 0x3F3504F3#32
/-- The float zero the sums start from. -/
abbrev zw : EReal := Ideal.ofBits .f32 0x00000000#32
/-- The reference's divisor `262144.0` and the kernel's factor `2⁻¹⁸`, as the words denote them. -/
abbrev npix : EReal := Ideal.ofBits .f32 0x48800000#32
abbrev scale : EReal := Ideal.ofBits .f32 0x36800000#32

/-- The absolute value on the extended reals. -/
abbrev eabs (x : EReal) : EReal := max x (-x)

/-- The three detail coefficients of a 2×2 patch `d` (row `p`, column `q`), and the patch's term of the loss. -/
def adOf (d : Fin 2 → Fin 2 → EReal) : EReal := ((d 0 0 + d 1 0) * cw - (d 0 1 + d 1 1) * cw) * cw
def daOf (d : Fin 2 → Fin 2 → EReal) : EReal := ((d 0 0 - d 1 0) * cw + (d 0 1 - d 1 1) * cw) * cw
def ddOf (d : Fin 2 → Fin 2 → EReal) : EReal := ((d 0 0 - d 1 0) * cw - (d 0 1 - d 1 1) * cw) * cw
def detOf (d : Fin 2 → Fin 2 → EReal) : EReal := eabs (adOf d) + eabs (daOf d) + eabs (ddOf d)

/-- Row or column `2h + p` of an image, and row `2i + p` of a 128-row block. -/
def two (h : Fin 512) (p : Fin 2) : Fin 1024 := ⟨2 * h.val + p.val, by have := h.isLt; have := p.isLt; omega⟩
def btwo (i : Fin 64) (p : Fin 2) : Fin 128 := ⟨2 * i.val + p.val, by have := i.isLt; have := p.isLt; omega⟩

/-- Patch `(h, w)` of channel `C` of image `B` of the difference of the two arrays. -/
def patch (a0 a1 : Arr) (B : Fin 16) (C : Fin 3) (h w : Fin 512) : Fin 2 → Fin 2 → EReal :=
  fun p q => a0 (ix4 B C (two h p) (two w q)) - a1 (ix4 B C (two h p) (two w q))

/-- Patch `(i, j)` of image `b` of the difference of two staged blocks. -/
def bpatch (x0 x1 : Blk) (b : Fin 8) (i : Fin 64) (j : Fin 512) : Fin 2 → Fin 2 → EReal :=
  fun p q => x0 (ix4 b 0 (btwo i p) (two j q)) - x1 (ix4 b 0 (btwo i p) (two j q))

/-! ## The reference -/

/-- A mean over the 512 × 512 patches as the host takes it: the sum from zero, divided by `262144.0`. -/
def meanOf (f : Fin 512 → Fin 512 → EReal) : EReal := Ideal.div (zw + ∑ h : Fin 512, ∑ w : Fin 512, f h w) npix

/-- The reference's result at image `i`: over the channels, from zero, the three means added. -/
def refOut (a0 a1 : Arr) : (⟨1, ![16]⟩ : Shape).Idx → EReal := fun i =>
  zw + ∑ C : Fin 3,
    (meanOf (fun h w => eabs (adOf (patch a0 a1 (i 0) C h w)))
      + meanOf (fun h w => eabs (daOf (patch a0 a1 (i 0) C h w)))
      + meanOf (fun h w => eabs (ddOf (patch a0 a1 (i 0) C h w))))

/-! ## The kernel -/

/-- What one grid point adds to image `b`'s accumulator: the patch terms of its blocks, summed over the 64 patch
    rows, then over the 512 patch columns. -/
def tileBlk (x0 x1 : Blk) (b : Fin 8) : EReal := ∑ j : Fin 512, ∑ i : Fin 64, detOf (bpatch x0 x1 b i j)

/-- Patch row `64·ht + i` of an image: row `i` of row tile `ht`. -/
def trow (ht : Fin 8) (i : Fin 64) : Fin 512 := ⟨64 * ht.val + i.val, by have := ht.isLt; have := i.isLt; omega⟩

/-- The same tile sum read off the whole arrays: image `B`, channel `C`, row tile `ht`. -/
def tileArr (a0 a1 : Arr) (B : Fin 16) (C : Fin 3) (ht : Fin 8) : EReal :=
  ∑ j : Fin 512, ∑ i : Fin 64, detOf (patch a0 a1 B C (trow ht i) j)

/-- The `k`-th tile of an image in grid order: channel `k / 8`, row tile `k % 8`. -/
def tileN (a0 a1 : Arr) (B : Fin 16) (k : ℕ) : EReal :=
  tileArr a0 a1 B ⟨(k / 8) % 3, Nat.mod_lt _ (by decide)⟩ ⟨k % 8, Nat.mod_lt _ (by decide)⟩

/-- Image `B`'s accumulator after its `n`-th grid point: reset to zero at the first, each tile added in turn. -/
def acc (a0 a1 : Arr) (B : Fin 16) : ℕ → EReal
  | 0 => zw + tileN a0 a1 B 0
  | n + 1 => acc a0 a1 B n + tileN a0 a1 B (n + 1)

/-- The kernel's result at image `i`: the accumulator after the image's last point, scaled. -/
def kernOut (a0 a1 : Arr) : (⟨1, ![16]⟩ : Shape).Idx → EReal := fun i => acc a0 a1 (i 0) 23 * scale

end Cert.Spec

end
-- ==== Proof.Pieces.lean ====
/-
  What the kernel body leaves behind at one grid point, read as values.

  The body keeps an accumulator block (8 images × 128 lanes) between grid points and writes the output block
  from it.  At a point that resets (the first tile of an image group) it stores the zero block, reads it back,
  adds the tile's sum and stores that; at every other point it adds the tile's sum to what the point before
  left.  Either way the output block is then stored at the accumulator times the scale word.  The four lemmas
  below say exactly this of the stores the body's run found: each buffer ends at the last whole-block store's
  value, and a load after a whole-block store reads that store's value.
-/
import proofs.«160671_j60327110640178_1_alg».proof.Proof.Gen.KernelIdeal.Frame
import proofs.«160671_j60327110640178_1_alg».proof.Proof.Spec
import Idealize.ShloMosaic.Lib.Pipeline.Value
import Idealize.ShloMosaic.Lib.StableHlo.Run
import Idealize.ShloMosaic.Lib.Tactic

set_option pp.maxSteps 5000
set_option pp.deepTerms false

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- What one grid point adds to the accumulator block `xs`: the body's one arithmetic term of the two staged
    blocks `x0`, `x1` (the tile sum of the Haar detail magnitudes, broadcast along the lanes, added to `xs`). -/
abbrev step (x0 x1 : Vec F S8x1x128x1024 .f32) (xs : Vec F S8x128 .f32) : Vec F S8x128 .f32 :=
  k0_pay1 (k0_pay5 x0 x1) (k0_pay6 x0 x1) (k0_pay7 x0 x1) (Scalar.ofBits .f32 0x3F3504F3#32) xs

/-- A point that does not reset: the accumulator, found at `xs`, is left at `step x0 x1 xs`. -/
theorem sout_B (c : Dev nD) (i : grid0.Coords) (a3 : Memref sig .tc .vmem S8x1x128x1024 .f32) (h3 : a3.IsWhole)
    (a4 : Memref sig .tc .vmem S8x1x128x1024 .f32) (h4 : a4.IsWhole) (a5 : Memref sig .tc .vmem S8x128 .f32) (h5 : a5.IsWhole)
    (a6 : Memref sig .tc .vmem S8x128 .f32) (h6 : a6.IsWhole) (hc : ¬cond0_0 i)
    (x0 x1 : Vec F S8x1x128x1024 .f32) (xs : Vec F S8x128 .f32) :
    sout0_B_0 c i a3 h3 a4 h4 a5 h5 a6 h6 hc x0 x1 xs = step x0 x1 xs := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero hz]
  simp only [View.readAt_eq_ld, h3.read_unread, h4.read_unread, h6.read_unread, View.ld_unit_zero (S := S8x128) hz,
    View.ld_unit_zero (S := S8x1x128x1024) hz4]

/-- … and the output block is left at the new accumulator times the scale word. -/
theorem out_B (c : Dev nD) (i : grid0.Coords) (a3 : Memref sig .tc .vmem S8x1x128x1024 .f32) (h3 : a3.IsWhole)
    (a4 : Memref sig .tc .vmem S8x1x128x1024 .f32) (h4 : a4.IsWhole) (a5 : Memref sig .tc .vmem S8x128 .f32) (h5 : a5.IsWhole)
    (a6 : Memref sig .tc .vmem S8x128 .f32) (h6 : a6.IsWhole) (hc : ¬cond0_0 i)
    (x0 x1 : Vec F S8x1x128x1024 .f32) (xs : Vec F S8x128 .f32) :
    out0_B_2 c i a3 h3 a4 h4 a5 h5 a6 h6 hc x0 x1 xs = k0_pay2 (step x0 x1 xs) := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero hz, View.readCov_unit_zero (S := S8x128) _ hz]
  simp only [View.readAt_eq_ld, h3.read_unread, h4.read_unread, h6.read_unread, View.ld_unit_zero (S := S8x128) hz,
    View.ld_unit_zero (S := S8x1x128x1024) hz4]

/-- A point that resets: the accumulator is first stored at the zero block, then left at `step x0 x1` of it. -/
theorem sout_A (c : Dev nD) (i : grid0.Coords) (a3 : Memref sig .tc .vmem S8x1x128x1024 .f32) (h3 : a3.IsWhole)
    (a4 : Memref sig .tc .vmem S8x1x128x1024 .f32) (h4 : a4.IsWhole) (a5 : Memref sig .tc .vmem S8x128 .f32) (h5 : a5.IsWhole)
    (a6 : Memref sig .tc .vmem S8x128 .f32) (h6 : a6.IsWhole) (hc : cond0_0 i)
    (x0 x1 : Vec F S8x1x128x1024 .f32) :
    sout0_A_0 c i a3 h3 a4 h4 a5 h5 a6 h6 hc x0 x1 = step x0 x1 k0_pay3 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S8x128) hz, View.readCov_unit_zero (S := S8x128) _ hz]
  simp only [View.readAt_eq_ld, h3.read_unread, h4.read_unread, View.ld_unit_zero (S := S8x1x128x1024) hz4]

/-- … and the output block at the new accumulator times the scale word. -/
theorem out_A (c : Dev nD) (i : grid0.Coords) (a3 : Memref sig .tc .vmem S8x1x128x1024 .f32) (h3 : a3.IsWhole)
    (a4 : Memref sig .tc .vmem S8x1x128x1024 .f32) (h4 : a4.IsWhole) (a5 : Memref sig .tc .vmem S8x128 .f32) (h5 : a5.IsWhole)
    (a6 : Memref sig .tc .vmem S8x128 .f32) (h6 : a6.IsWhole) (hc : cond0_0 i)
    (x0 x1 : Vec F S8x1x128x1024 .f32) :
    out0_A_2 c i a3 h3 a4 h4 a5 h5 a6 h6 hc x0 x1 = k0_pay2 (step x0 x1 k0_pay3) := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero hz, View.readCov_eq_canon', View.canon_cons_unit_zero (S := S8x128) hz,
    View.readCov_unit_zero (S := S8x128) _ hz]
  simp only [View.readAt_eq_ld, h3.read_unread, h4.read_unread, View.ld_unit_zero (S := S8x1x128x1024) hz4]
  exact congrArg k0_pay2 (View.ld_unit_zero (S := S8x128) hz inb_S8x128_S8x128_0_0 (step x0 x1 k0_pay3))

end Cert.KernelIdeal.Pieces
end
-- ==== Proof.Blocks.lean ====
/-
  Where a staged block sits in its array, and the tile sum of a grid point read off the whole arrays.

  The grid has 2 · 3 · 8 = 48 points; point `t` is image group `t / 24`, channel `(t / 8) % 3`, row tile `t % 8`.
  Both input windows stage, at `t`, images `8·(t/24) … 8·(t/24)+7`, that one channel, rows `128·(t%8) … +127`,
  all 1024 columns; so entry `(b, 0, r, w)` of a staged block is entry `(8·(t/24)+b, (t/8)%3, 128·(t%8)+r, w)`
  of the array.  Row `2i+p` of the block is therefore row `2·(64·(t%8)+i)+p` of the image: patch `(i, j)` of
  the block is patch `(64·(t%8)+i, j)` of the image, and the point's tile sum is the `(t % 24)`-th tile of the
  image in grid order.
-/
import proofs.«160671_j60327110640178_1_alg».proof.Proof.Gen.KernelIdeal.Frame
import proofs.«160671_j60327110640178_1_alg».proof.Proof.Spec
import Idealize.ShloMosaic.Lib.Pipeline.Value
import Idealize.ShloMosaic.Lib.StableHlo.Run
import Idealize.ShloMosaic.Lib.Tactic

set_option pp.maxSteps 5000
set_option pp.deepTerms false

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx

variable {F : FTy → Type} [FloatOps F]
variable (m : (ℓ : Loc nD τ sig) → Buf (Elt F) ℓ)

/-- The windows' block indices at point `t`, decided over the 48 points. -/
theorem idx_facts : ∀ t : Fin cfg0.N,
    win0_0.index t (0 : Fin 4) = t.val / 24 ∧ win0_0.index t (1 : Fin 4) = (t.val / 8) % 3
    ∧ win0_0.index t (2 : Fin 4) = t.val % 8 ∧ win0_0.index t (3 : Fin 4) = 0
    ∧ win0_1.index t (0 : Fin 4) = t.val / 24 ∧ win0_1.index t (1 : Fin 4) = (t.val / 8) % 3
    ∧ win0_1.index t (2 : Fin 4) = t.val % 8 ∧ win0_1.index t (3 : Fin 4) = 0
    ∧ win0_2.index t (0 : Fin 2) = t.val / 24 ∧ win0_2.index t (1 : Fin 2) = 0 :=
  (by decide +kernel : ∀ t : Fin grid0.N, _)

/-- Entry `(b, 0, r, w)` of the first operand's block at `t` is entry `(B, C, R, w)` of its array. -/
theorem iblk0_apply (c : Dev nD) (t : Fin cfg0.N) (b : Fin 8) (r : Fin 128) (w : Fin 1024)
    (B : Fin 16) (C : Fin 3) (R : Fin 1024) (hB : B.val = 8 * (t.val / 24) + b.val) (hC : C.val = (t.val / 8) % 3)
    (hR : R.val = 128 * (t.val % 8) + r.val) :
    iblk m c 0 t (ix4 b 0 r w) = V m c main_arg0 (ix4 B C R w) := by
  obtain ⟨e0, e1, e2, e3, -⟩ := idx_facts t
  unfold iblk
  rw [View.read_apply]
  show V m c main_arg0 _ = V m c main_arg0 _
  refine congrArg (V m c main_arg0) ?_
  funext a; apply Fin.ext
  match a with
  | ⟨0, _⟩ => show win0_0.index t (0 : Fin 4) * 8 + 1 * b.val = B.val; omega
  | ⟨1, _⟩ => show win0_0.index t (1 : Fin 4) * 1 + 1 * 0 = C.val; omega
  | ⟨2, _⟩ => show win0_0.index t (2 : Fin 4) * 128 + 1 * r.val = R.val; omega
  | ⟨3, _⟩ => show win0_0.index t (3 : Fin 4) * 1024 + 1 * w.val = w.val; omega

/-- The same for the second operand. -/
theorem iblk1_apply (c : Dev nD) (t : Fin cfg0.N) (b : Fin 8) (r : Fin 128) (w : Fin 1024)
    (B : Fin 16) (C : Fin 3) (R : Fin 1024) (hB : B.val = 8 * (t.val / 24) + b.val) (hC : C.val = (t.val / 8) % 3)
    (hR : R.val = 128 * (t.val % 8) + r.val) :
    iblk m c 1 t (ix4 b 0 r w) = V m c main_arg1 (ix4 B C R w) := by
  obtain ⟨-, -, -, -, e0, e1, e2, e3, -⟩ := idx_facts t
  unfold iblk
  rw [View.read_apply]
  show V m c main_arg1 _ = V m c main_arg1 _
  refine congrArg (V m c main_arg1) ?_
  funext a; apply Fin.ext
  match a with
  | ⟨0, _⟩ => show win0_1.index t (0 : Fin 4) * 8 + 1 * b.val = B.val; omega
  | ⟨1, _⟩ => show win0_1.index t (1 : Fin 4) * 1 + 1 * 0 = C.val; omega
  | ⟨2, _⟩ => show win0_1.index t (2 : Fin 4) * 128 + 1 * r.val = R.val; omega
  | ⟨3, _⟩ => show win0_1.index t (3 : Fin 4) * 1024 + 1 * w.val = w.val; omega

end Cert.KernelIdeal.Blocks
end
-- ==== Proof.PayLayout.lean ====
/-
  The kernel body's layout operations read at an index given by coordinates.

  The body re-lays a block of 8 images × 128 rows × 1024 columns several times: it drops the unit channel axis, splits
  the rows into (patch row, row within the patch), cuts the two rows of a patch apart, swaps rows and columns, splits
  the columns into (patch column, column within the patch) and cuts those apart; later it sums over one axis and then
  another, re-attaching and dropping unit axes, and spreads a column of 8 numbers over 128 lanes.  Each of these reads,
  at an index, ONE element of its operand; this module says which, with every index written by its coordinates, so
  that the arithmetic of the body can be read off element by element.  For a shape cast the element is the one at the
  same row-major position; the position of (i, j, k, l) in a shape [a, b, c, d] is ((i·b + j)·c + k)·d + l.
-/
import proofs.«160671_j60327110640178_1_alg».proof.Proof.Gen.KernelIdeal.Skeleton
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

variable {α : Type}

/-! ## Unit axes dropped and added -/

/-- An [a, 1, b, c] array cast to [a, b, c] reads, at (i, j, k), the operand at (i, 0, j, k):
    both sit at position (i·b + j)·c + k. -/
theorem cast_a1bc_abc {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- An [a, b, 1, c] array cast to [a, b, c] reads, at (i, j, k), the operand at (i, j, 0, k). -/
theorem cast_ab1c_abc {a b c : ℕ} (x : (⟨4, ![a, b, 1, c]⟩ : Shape).Idx → α)
    (h : (⟨4, ![a, b, 1, c]⟩ : Shape).ShapeCasts ⟨3, ![a, b, c]⟩) (i : Fin a) (j : Fin b) (k : Fin c) :
    shapeCast ⟨3, ![a, b, c]⟩ x h (ix3 i j k) = x (ix4 i j (0 : Fin 1) k) :=
  shapeCast_apply x h _ _ (by
    rw [Shape.rowMajor_val_four, Shape.rowMajor_val_three]
    show ((i.val * b + j.val) * 1 + 0) * c + k.val = (i.val * b + j.val) * c + k.val
    rw [Nat.mul_one, Nat.add_zero])

/-- An [a, b] array cast to [a, b, 1] (a sum that keeps its axis) reads, at (i, j, u), the operand at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## One of the two members of an axis of pairs -/

/-- Member `p` of axis 2 of an [a, b, n, c] array, cut out as [a, b, 1, c] from offset `o = p` and cast to [a, b, c],
    reads at (i, j, k) the array at (i, j, p, k). -/
theorem slice_axis2_squeeze {a b n c : ℕ} (P : (⟨4, ![a, b, n, c]⟩ : Shape).Idx → α) (o : ℕ)
    (h : (⟨4, ![a, b, n, c]⟩ : Shape).Slices ![0, 0, o, 0] ⟨4, ![a, b, 1, c]⟩)
    (h' : (⟨4, ![a, b, 1, c]⟩ : Shape).ShapeCasts ⟨3, ![a, b, c]⟩)
    (i : Fin a) (j : Fin b) (k : Fin c) (p : Fin n) (hp : p.val = o) :
    shapeCast ⟨3, ![a, b, c]⟩ (extractStridedSlice ⟨4, ![a, b, 1, c]⟩ ![0, 0, o, 0] P h) h' (ix3 i j k)
      = P (ix4 i j p k) :=
  (cast_ab1c_abc _ h' i j k).trans (slice4_axis2_apply o P h i j (0 : Fin 1) k p (by rw [hp]; rfl))

/-! ## An axis of 2m split into m pairs -/

/-- The 128 rows of a block as 64 pairs: [8, 128, 1024] cast to [8, 64, 2, 1024] reads, at (b, i, p, w), row 2i + p:
    (b·128 + (2i + p))·1024 + w = ((b·64 + i)·2 + p)·1024 + w. -/
theorem cast_split_rows (x : S8x128x1024.Idx → α) (h : S8x128x1024.ShapeCasts S8x64x2x1024)
    (b : Fin 8) (i : Fin 64) (p : Fin 2) (w : Fin 1024) (r : Fin 128) (hr : r.val = 2 * i.val + p.val) :
    shapeCast S8x64x2x1024 x h (ix4 b i p w) = x (ix3 b r w) :=
  shapeCast_apply x h _ _ (by
    rw [Shape.rowMajor_val_four, Shape.rowMajor_val_three]
    show (b.val * 128 + r.val) * 1024 + w.val = ((b.val * 64 + i.val) * 2 + p.val) * 1024 + w.val
    omega)

/-- The 1024 columns (now the middle axis) as 512 pairs: [8, 1024, 64] cast to [8, 512, 2, 64] reads, at (b, j, q, i),
    column 2j + q. -/
theorem cast_split_cols (x : S8x1024x64.Idx → α) (h : S8x1024x64.ShapeCasts S8x512x2x64)
    (b : Fin 8) (j : Fin 512) (q : Fin 2) (i : Fin 64) (w : Fin 1024) (hw : w.val = 2 * j.val + q.val) :
    shapeCast S8x512x2x64 x h (ix4 b j q i) = x (ix3 b w i) :=
  shapeCast_apply x h _ _ (by
    rw [Shape.rowMajor_val_four, Shape.rowMajor_val_three]
    show (b.val * 1024 + w.val) * 64 + i.val = ((b.val * 512 + j.val) * 2 + q.val) * 64 + i.val
    omega)

/-! ## One column spread over many -/

/-- An [a, 1] array broadcast to [a, b] reads, at (i, l), the operand's one entry of row i. -/
theorem broadcast_a1_ab {a b : ℕ} (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) := by
  refine broadcastTo_apply v h (ix2 i l) (ix2 i (0 : Fin 1)) fun ax => ?_
  match ax with
  | ⟨0, _⟩ =>
    show i.val = if a = 1 then 0 else i.val
    split
    · have := i.isLt; omega
    · rfl
  | ⟨1, _⟩ => rfl

/-! ## Sums over one axis

Over the extended reals a sum reduction along one axis, started from the zero word, is the plain sum over that axis's
coordinates of the operand at the index with the coordinate put back in its place. -/

/-- The sum over the last axis of an [a, b, c] array, at (i, j): the sum over k of the entries (i, j, k). -/
theorem reduce_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src ?_
  funext ax
  match ax with
  | ⟨0, _⟩ => rfl
  | ⟨1, _⟩ => rfl
  | ⟨2, _⟩ => rfl

/-- The sum over the middle axis of an [a, b, c] array, at (i, k): the sum over j of the entries (i, j, k). -/
theorem reduce_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src ?_
  funext ax
  match ax with
  | ⟨0, _⟩ => rfl
  | ⟨1, _⟩ => rfl
  | ⟨2, _⟩ => rfl

end Cert.KernelIdeal.PayValue

end
-- ==== Proof.PayParts.lean ====
/-
  The kernel body's first four values read at an index, over the extended reals.

  Write D r w = x0 (b, 0, r, w) − x1 (b, 0, r, w) for image b of the staged blocks (128 rows r, 1024 columns w), and
  c for the filter coefficient.  Patch (i, j) of the image is d p q = D (2i + p) (2j + q).  The body computes

    * the difference block re-laid as (b, i, p, w) ↦ D (2i + p) w: the unit channel axis dropped, the rows split in pairs;
    * the row differences (b, j, q, i) ↦ (d 0 q − d 1 q)·c: the two rows of each pair cut apart, subtracted and scaled,
      rows and columns swapped, and the columns split in pairs;
    * the coefficient "average over the rows, difference over the columns" (b, j, i) ↦ ((d 0 0 + d 1 0)·c − (d 0 1 + d 1 1)·c)·c,
      made the same way from the row sums, the two columns of each pair cut apart, subtracted and scaled;
    * the sum over the two columns of the row differences, (b, j, i) ↦ (d 0 0 − d 1 0)·c + (d 0 1 − d 1 1)·c.

  Each is read here at coordinates, one layout operation at a time, outermost first.
-/
import proofs.«160671_j60327110640178_1_alg».proof.Proof.PayLayout
import proofs.«160671_j60327110640178_1_alg».proof.Proof.Spec

noncomputable section

open scoped BigOperators

namespace Cert.KernelIdeal.PayValue

open Cert.KernelIdeal Cert.KernelIdeal.Gen Idealize.ShloMosaic Idealize.ShloMosaic.ValueIdx
open Cert.Spec (bpatch btwo two cw adOf)

variable {α : Type}

/-! ## The difference block, rows in pairs -/

/-- The difference of the two staged blocks with its rows in pairs reads, at (b, i, p, w), the difference at row 2i + p. -/
theorem pay4_apply (x0 x1 : Vec Ideal S8x1x128x1024 .f32) (b : Fin 8) (i : Fin 64) (p : Fin 2) (w : Fin 1024) :
    k0_pay4 (F := Ideal) x0 x1 (ix4 b i p w)
      = x0 (ix4 b (0 : Fin 1) (btwo i p) w) - x1 (ix4 b (0 : Fin 1) (btwo i p) w) := by
  unfold k0_pay4
  refine (cast_split_rows _ _ b i p w (btwo i p) rfl).trans ?_
  exact congrArg₂ (· - ·) (cast_a1bc_abc x0 _ b (btwo i p) w) (cast_a1bc_abc x1 _ b (btwo i p) w)

/-- Row `p` of every pair, cut out of the difference block: at (b, i, w) the difference at row 2i + p. -/
theorem rowMember_apply (x0 x1 : Vec Ideal S8x1x128x1024 .f32) (o : ℕ)
    (hS : S8x64x2x1024.Slices ![0, 0, o, 0] S8x64x1x1024) (hC : S8x64x1x1024.ShapeCasts S8x64x1024)
    (b : Fin 8) (i : Fin 64) (w : Fin 1024) (p : Fin 2) (hp : p.val = o) :
    shapeCast S8x64x1024 (extractStridedSlice S8x64x1x1024 ![0, 0, o, 0] (k0_pay4 (F := Ideal) x0 x1) hS) hC (ix3 b i w)
      = x0 (ix4 b (0 : Fin 1) (btwo i p) w) - x1 (ix4 b (0 : Fin 1) (btwo i p) w) :=
  (slice_axis2_squeeze _ o hS hC b i w p hp).trans (pay4_apply x0 x1 b i p w)

/-! ## Rows and columns swapped, columns in pairs -/

/-- An [8, 64, 1024] array V (patch rows by columns) with its last two axes swapped and the columns split in pairs
    reads, at (b, j, q, i), V at patch row i and column 2j + q. -/
theorem transpose_split_apply (V : S8x64x1024.Idx → α) (hT : S8x64x1024.Transposes [0, 2, 1] S8x1024x64)
    (hC : S8x1024x64.ShapeCasts S8x512x2x64) (b : Fin 8) (j : Fin 512) (q : Fin 2) (i : Fin 64) :
    shapeCast S8x512x2x64 (transpose S8x1024x64 [0, 2, 1] V hT) hC (ix4 b j q i) = V (ix3 b i (two j q)) :=
  (cast_split_cols _ hC b j q i (two j q) rfl).trans (transpose_ix3_021_apply V hT b (two j q) i)

/-- Column `q` of every pair, cut out of that: at (b, j, i), V at patch row i and column 2j + q. -/
theorem colMember_apply (V : S8x64x1024.Idx → α) (o : ℕ) (hT : S8x64x1024.Transposes [0, 2, 1] S8x1024x64)
    (hC : S8x1024x64.ShapeCasts S8x512x2x64) (hS : S8x512x2x64.Slices ![0, 0, o, 0] S8x512x1x64)
    (hC' : S8x512x1x64.ShapeCasts S8x512x64) (b : Fin 8) (j : Fin 512) (i : Fin 64) (q : Fin 2) (hq : q.val = o) :
    shapeCast S8x512x64 (extractStridedSlice S8x512x1x64 ![0, 0, o, 0]
        (shapeCast S8x512x2x64 (transpose S8x1024x64 [0, 2, 1] V hT) hC) hS) hC' (ix3 b j i)
      = V (ix3 b i (two j q)) :=
  (slice_axis2_squeeze _ o hS hC' b j i q hq).trans (transpose_split_apply V hT hC b j q i)

/-! ## The three values the loop-free part hands on -/

/-- The row differences: at (b, j, q, i), (d 0 q − d 1 q)·c for the patch d at patch row i, patch column j. -/
theorem pay5_apply (x0 x1 : Vec Ideal S8x1x128x1024 .f32) (b : Fin 8) (j : Fin 512) (q : Fin 2) (i : Fin 64) :
    k0_pay5 (F := Ideal) x0 x1 (ix4 b j q i) = (bpatch x0 x1 b i j 0 q - bpatch x0 x1 b i j 1 q) * cw := by
  unfold k0_pay5
  refine (transpose_split_apply _ _ _ b j q i).trans ?_
  exact congrArg₂ (· * ·)
    (congrArg₂ (· - ·) (rowMember_apply x0 x1 0 _ _ b i (two j q) 0 rfl) (rowMember_apply x0 x1 1 _ _ b i (two j q) 1 rfl))
    rfl

/-- The coefficient that averages over the rows and differences over the columns: at (b, j, i), that of patch (i, j). -/
theorem pay6_apply (x0 x1 : Vec Ideal S8x1x128x1024 .f32) (b : Fin 8) (j : Fin 512) (i : Fin 64) :
    k0_pay6 (F := Ideal) x0 x1 (ix3 b j i) = adOf (bpatch x0 x1 b i j) := by
  unfold k0_pay6 Cert.Spec.adOf
  refine congrArg₂ (· * ·) (congrArg₂ (· - ·) ?_ ?_) rfl
  · refine (colMember_apply _ 0 _ _ _ _ b j i 0 rfl).trans ?_
    exact congrArg₂ (· * ·)
      (congrArg₂ (· + ·) (rowMember_apply x0 x1 0 _ _ b i (two j 0) 0 rfl) (rowMember_apply x0 x1 1 _ _ b i (two j 0) 1 rfl))
      rfl
  · refine (colMember_apply _ 1 _ _ _ _ b j i 1 rfl).trans ?_
    exact congrArg₂ (· * ·)
      (congrArg₂ (· + ·) (rowMember_apply x0 x1 0 _ _ b i (two j 1) 0 rfl) (rowMember_apply x0 x1 1 _ _ b i (two j 1) 1 rfl))
      rfl

/-- The row differences summed over the two columns of the patch: at (b, j, i), (d 0 0 − d 1 0)·c + (d 0 1 − d 1 1)·c. -/
theorem pay7_apply (x0 x1 : Vec Ideal S8x1x128x1024 .f32) (b : Fin 8) (j : Fin 512) (i : Fin 64) :
    k0_pay7 (F := Ideal) x0 x1 (ix3 b j i)
      = (bpatch x0 x1 b i j 0 0 - bpatch x0 x1 b i j 1 0) * cw + (bpatch x0 x1 b i j 0 1 - bpatch x0 x1 b i j 1 1) * cw := by
  unfold k0_pay7
  exact congrArg₂ (· + ·)
    ((slice_axis2_squeeze _ 0 _ _ b j i 0 rfl).trans (pay5_apply x0 x1 b j 0 i))
    ((slice_axis2_squeeze _ 1 _ _ b j i 1 rfl).trans (pay5_apply x0 x1 b j 1 i))

end Cert.KernelIdeal.PayValue

end
-- ==== Proof.Payload.lean ====
/-
  The three values the kernel body stores, read at an index, over the extended reals.

  With d the patch (i, j) of image b of the difference of the two staged blocks and c the filter coefficient, the body
  holds at (b, j, i) the coefficient ad = ((d00 + d10)·c − (d01 + d11)·c)·c, forms da = ((d00 − d10)·c + (d01 − d11)·c)·c
  from the summed row differences and dd = ((d00 − d10)·c − (d01 − d11)·c)·c from their difference over the two columns,
  and adds |ad| + |da| + |dd|.  It sums that over the 64 patch rows i, then over the 512 patch columns j — each sum
  starts from the zero word, so over the extended reals it is the plain sum —, and adds the one number per image to
  every lane of that image's row of the accumulator.  The unit axes the sums keep, re-attach and drop again, and the
  shape casts to the same shape, change no value.  So the stored block is the accumulator plus the image's tile sum.
  The other two stores are the accumulator times 2⁻¹⁸ and the zero block.
-/
import proofs.«160671_j60327110640178_1_alg».proof.Proof.PayParts

noncomputable section

open scoped BigOperators

namespace Cert.KernelIdeal.PayValue

open Cert.KernelIdeal Cert.KernelIdeal.Gen Idealize.ShloMosaic Idealize.ShloMosaic.ValueIdx
open Cert.Spec (bpatch cw eabs detOf tileBlk)

/-- The accumulating store over ANY three incoming values `v28` (row differences), `v35` and `v40`: if, patch by patch,
    |v35| + |v40·c| + |(v28 at column 0 − v28 at column 1)·c| is T b j i, the stored block at (b, l) is the accumulator
    there plus the sum of T b over the 512 patch columns and 64 patch rows. -/
theorem pay1_of_term (v28 : FVec Ideal S8x512x2x64 .f32) (v35 v40 : FVec Ideal S8x512x64 .f32) (v60 : Vec Ideal S8x128 .f32)
    (T : Fin 8 → Fin 512 → Fin 64 → EReal)
    (hT : ∀ b j i, eabs (v35 (ix3 b j i)) + eabs (v40 (ix3 b j i) * cw)
        + eabs ((v28 (ix4 b j (0 : Fin 2) i) - v28 (ix4 b j (1 : Fin 2) i)) * cw) = T b j i)
    (b : Fin 8) (l : Fin 128) :
    k0_pay1 (F := Ideal) v28 v35 v40 (Scalar.ofBits .f32 0x3F3504F3#32) v60 (ix2 b l)
      = v60 (ix2 b l) + ∑ j : Fin 512, ∑ i : Fin 64, T b j i := by
  unfold k0_pay1
  -- the last cast is to the same shape; the sum of the accumulator and the broadcast column, at (b, l)
  refine (congrFun (shapeCast_self _ _) (ix2 b l)).trans ?_
  refine congrArg₂ (· + ·) rfl ?_
  -- the column spread over the lanes, read at its one entry of row b; the casts around it change nothing
  refine (broadcast_a1_ab _ _ b l).trans ?_
  refine (congrFun (shapeCast_self _ _) _).trans ?_
  refine (congrFun (shapeCast_shapeCast _ _ _) _).trans ?_
  -- the sum over the patch columns j, of the sum over the patch rows i with its axis kept
  refine (reduce_axis1_of3 _ _ _ _ b (0 : Fin 1)).trans ?_
  refine Finset.sum_congr rfl fun j _ => ?_
  refine (cast_ab_ab1 _ _ b j (0 : Fin 1)).trans ?_
  refine (reduce_axis2_of3 _ _ _ _ b j).trans ?_
  refine Finset.sum_congr rfl fun i _ => ?_
  -- the patch's term: the three absolute values, the third from the two columns of the row differences
  refine Eq.trans ?_ (hT b j i)
  refine congrArg₂ (· + ·) rfl (congrArg eabs (congrArg₂ (· * ·) (congrArg₂ (· - ·) ?_ ?_) rfl))
  · exact slice_axis2_squeeze v28 0 _ _ b j i 0 rfl
  · exact slice_axis2_squeeze v28 1 _ _ b j i 1 rfl

/-- THE ACCUMULATING STORE: at (b, l), the accumulator plus image b's tile sum of |ad| + |da| + |dd|. -/
theorem pay1_apply (x0 x1 : Vec Ideal S8x1x128x1024 .f32) (v60 : Vec Ideal S8x128 .f32) (b : Fin 8) (l : Fin 128) :
    k0_pay1 (F := Ideal) (k0_pay5 x0 x1) (k0_pay6 x0 x1) (k0_pay7 x0 x1) (Scalar.ofBits .f32 0x3F3504F3#32) v60 (ix2 b l)
      = v60 (ix2 b l) + Cert.Spec.tileBlk x0 x1 b :=
  pay1_of_term _ _ _ v60 (fun b j i => detOf (bpatch x0 x1 b i j)) (fun b j i => by
    rw [pay6_apply, pay7_apply, pay5_apply, pay5_apply]
    rfl) b l

/-- THE SCALED STORE: the accumulator times the factor 2⁻¹⁸, element by element. -/
theorem pay2_apply (v : Vec Ideal S8x128 .f32) (j : S8x128.Idx) : k0_pay2 (F := Ideal) v j = v j * Cert.Spec.scale := rfl

/-- THE RESET STORE: the zero word everywhere (the cast to the same shape changes nothing). -/
theorem pay3_apply (j : S8x128.Idx) : k0_pay3 (F := Ideal) j = Cert.Spec.zw := by
  unfold k0_pay3
  exact congrFun (shapeCast_self _ _) j

end Cert.KernelIdeal.PayValue

end
-- ==== Proof.Accum.lean ====
/-
  The accumulation across the grid, in closed form.

  An image group's 24 grid points run in order; the first resets the accumulator block to zero and adds its
  tile sums, each later one adds its own.  So after position `n` the accumulator holds, for image `b` of the
  group, the running sum `Cert.Spec.acc` of the image's tiles up to tile `n % 24` (the same in every lane), and
  the output block holds that times the scale word.  This is an induction on the position over the two cases
  of the body, with the per-point arithmetic read at an index.  The last point of a group (position ≡ 23 mod
  24) is the one whose output block is written back: it writes the group's block of the function `G`,
  row `B` ↦ image `B`'s total times the scale word.
-/
import proofs.«160671_j60327110640178_1_alg».proof.Proof.Gen.KernelIdeal.Frame
import proofs.«160671_j60327110640178_1_alg».proof.Proof.Spec
import proofs.«160671_j60327110640178_1_alg».proof.Proof.Pieces
import proofs.«160671_j60327110640178_1_alg».proof.Proof.Blocks
import proofs.«160671_j60327110640178_1_alg».proof.Proof.Payload
import Idealize.ShloMosaic.Lib.Pipeline.Value
import Idealize.ShloMosaic.Lib.StableHlo.Run
import Idealize.ShloMosaic.Lib.Tactic

set_option pp.maxSteps 5000
set_option pp.deepTerms false

noncomputable section

open Idealize.ShloMosaic Idealize.ShloMosaic.TcCoe Idealize.SL.Sem
open Idealize.ShloMosaic.Pipeline (Dat)

namespace Cert.KernelIdeal.Accum
open Cert.KernelIdeal Cert.KernelIdeal.Gen Idealize.ShloMosaic.ValueIdx Cert.KernelIdeal.Pieces Cert.KernelIdeal.Blocks

variable (m : (ℓ : Loc nD τ sig) → Buf (Elt Ideal) ℓ)
open Cert.KernelIdeal.PayValue

/-- The tile sum of point `t`'s staged blocks for image `b` of the group is tile `t % 24` of image `B = 8·(t/24)+b`. -/
theorem tile_eq (c : Dev nD) (t : Fin cfg0.N) (b : Fin 8) (B : Fin 16) (hB : B.val = 8 * (t.val / 24) + b.val) :
    Cert.Spec.tileBlk (iblk m c 0 t) (iblk m c 1 t) b
      = Cert.Spec.tileN (V m c main_arg0) (V m c main_arg1) B (t.val % 24) := by
  unfold Cert.Spec.tileBlk Cert.Spec.tileN Cert.Spec.tileArr
  refine Finset.sum_congr rfl fun j _ => Finset.sum_congr rfl fun i _ => congrArg Cert.Spec.detOf ?_
  funext p q
  have hN : t.val < 48 := lt_of_lt_of_eq t.isLt (show cfg0.N = 48 from N_0)
  have hi : i.val < 64 := i.isLt
  have hp : p.val < 2 := p.isLt
  exact congrArg₂ (fun u v : EReal => u - v)
    (iblk0_apply m c t b (Cert.Spec.btwo i p) (Cert.Spec.two j q) B _ _ hB (by show (t.val % 24 / 8) % 3 = (t.val / 8) % 3; omega)
        (by show 2 * (64 * (t.val % 24 % 8) + i.val) + p.val = 128 * (t.val % 8) + (2 * i.val + p.val); omega))
    (iblk1_apply m c t b (Cert.Spec.btwo i p) (Cert.Spec.two j q) B _ _ hB (by show (t.val % 24 / 8) % 3 = (t.val / 8) % 3; omega)
        (by show 2 * (64 * (t.val % 24 % 8) + i.val) + p.val = 128 * (t.val % 8) + (2 * i.val + p.val); omega))

/-- The accumulator block after grid position `n`: lane-constant, at image `b` of the group the running sum of the
    image's tiles up to this position (`Cert.Spec.acc`). -/
def accBlk (c : Dev nD) (n : ℕ) : Vec Ideal S8x128 .f32 := fun y =>
  Cert.Spec.acc (V m c main_arg0) (V m c main_arg1) ⟨(8 * (n / 24) + (y 0).val) % 16, Nat.mod_lt _ (by decide)⟩ (n % 24)

/-- At a point that resets, the body leaves the zero block plus the point's tile sums: the accumulator's first value. -/
theorem step_reset (c : Dev nD) (t : Fin cfg0.N) (h0 : t.val % 24 = 0) :
    step (iblk m c 0 t) (iblk m c 1 t) (k0_pay3 (F := Ideal)) = accBlk m c t.val := by
  funext y
  obtain ⟨b, l, rfl⟩ : ∃ (b : Fin 8) (l : Fin 128), y = ix2 b l := ⟨y 0, y 1, eq_ix2 y⟩
  have hN : t.val < 48 := lt_of_lt_of_eq t.isLt (show cfg0.N = 48 from N_0)
  have hb : b.val < 8 := b.isLt
  refine (pay1_apply (iblk m c 0 t) (iblk m c 1 t) (k0_pay3 (F := Ideal)) b l).trans ?_
  rw [pay3_apply, tile_eq m c t b ⟨(8 * (t.val / 24) + b.val) % 16, Nat.mod_lt _ (by decide)⟩
    (by show (8 * (t.val / 24) + b.val) % 16 = _; omega)]
  show _ = Cert.Spec.acc _ _ _ (t.val % 24)
  rw [h0]
  rfl

/-- At any other point, the body adds the point's tile sums to what the point before left. -/
theorem step_next (c : Dev nD) (t : Fin cfg0.N) (h0 : ¬t.val % 24 = 0) :
    step (iblk m c 0 t) (iblk m c 1 t) (accBlk m c (t.val - 1)) = accBlk m c t.val := by
  funext y
  obtain ⟨b, l, rfl⟩ : ∃ (b : Fin 8) (l : Fin 128), y = ix2 b l := ⟨y 0, y 1, eq_ix2 y⟩
  have hN : t.val < 48 := lt_of_lt_of_eq t.isLt (show cfg0.N = 48 from N_0)
  have hb : b.val < 8 := b.isLt
  refine (pay1_apply (iblk m c 0 t) (iblk m c 1 t) (accBlk m c (t.val - 1)) b l).trans ?_
  rw [tile_eq m c t b ⟨(8 * (t.val / 24) + b.val) % 16, Nat.mod_lt _ (by decide)⟩
    (by show (8 * (t.val / 24) + b.val) % 16 = _; omega)]
  obtain ⟨k, hk1, hk2⟩ : ∃ k, t.val % 24 = k + 1 ∧ (t.val - 1) % 24 = k := ⟨t.val % 24 - 1, by omega, by omega⟩
  have hB : (⟨(8 * ((t.val - 1) / 24) + b.val) % 16, Nat.mod_lt _ (by decide)⟩ : Fin 16)
      = ⟨(8 * (t.val / 24) + b.val) % 16, Nat.mod_lt _ (by decide)⟩ :=
    Fin.ext (by show (8 * ((t.val - 1) / 24) + b.val) % 16 = (8 * (t.val / 24) + b.val) % 16; omega)
  show Cert.Spec.acc _ _ ⟨(8 * ((t.val - 1) / 24) + b.val) % 16, _⟩ ((t.val - 1) % 24) + _ = Cert.Spec.acc _ _ ⟨(8 * (t.val / 24) + b.val) % 16, _⟩ (t.val % 24)
  rw [hB, hk1, hk2]
  rfl

/-- What the output block and the accumulator hold after position `n`: the accumulator's closed form, and the output
    block at it times the scale word — by induction on the position. -/
theorem outsAt_eq (c : Dev nD) : ∀ (n : ℕ) (hn : n < cfg0.N),
    outsAt0 m c n hn = (k0_pay2 (accBlk m c n), accBlk m c n)
  | 0, hn => by
    rw [outsAt0_A m c ⟨0, hn⟩ rfl, out_A, sout_A, step_reset m c ⟨0, hn⟩ rfl]
  | n + 1, hn => by
    by_cases h0 : (n + 1) % 24 = 0
    · rw [outsAt0_A m c ⟨n + 1, hn⟩ h0, out_A, sout_A, step_reset m c ⟨n + 1, hn⟩ h0]
    · rw [outsAt0_B m c ⟨n + 1, hn⟩ h0, out_B, sout_B]
      have ih := outsAt_eq c n (Nat.lt_of_succ_lt hn)
      have e : (outsAt0 m c ((⟨n + 1, hn⟩ : Fin cfg0.N).val - 1) (Nat.lt_of_le_of_lt (Nat.sub_le _ _) (⟨n + 1, hn⟩ : Fin cfg0.N).isLt)).2
          = accBlk m c ((⟨n + 1, hn⟩ : Fin cfg0.N).val - 1) := by
        show (outsAt0 m c n _).2 = accBlk m c n
        rw [ih]
      rw [e, step_next m c ⟨n + 1, hn⟩ h0]

/-- The output array the run ends with: every lane of row `B` holds image `B`'s total times the scale word. -/
def G (c : Dev nD) : Buf (Elt Ideal) ((c.tc : Thread nD τ).loc main_v0) := fun y =>
  Cert.Spec.acc (V m c main_arg0) (V m c main_arg1) ⟨(y 0).val, (y 0).isLt⟩ 23 * Cert.Spec.scale

/-- What a point that writes back writes: the last point of an image group, its block of `G`. -/
theorem flushed_eq (c : Dev nD) (t : Fin cfg0.N) (hf : (cfg0.win 2).flush t = true) :
    (dats m 0 c).flushed 2 t = ((cfg0.win 2).blk t).view.read (Elt Ideal) (G m c) := by
  have h23 : t.val % 24 = 23 := (flush0_2 t).mp hf
  have hN : t.val < 48 := lt_of_lt_of_eq t.isLt (show cfg0.N = 48 from N_0)
  obtain ⟨-, -, -, -, -, -, -, -, e0, e1⟩ := idx_facts t
  show (cfg0.win 2).cut (grid0.coords t) ((dats m 0 c).after 2 t) = _
  rw [after0_2, outsAt_eq m c t.val t.isLt]
  funext j
  rw [View.read_apply]
  show k0_pay2 (accBlk m c t.val) j = G m c (((cfg0.win 2).blk t).view.emb j)
  rw [pay2_apply]
  have hj : (j 0).val < 8 := (j 0).isLt
  have hB : (⟨(8 * (t.val / 24) + (j 0).val) % 16, Nat.mod_lt _ (by decide)⟩ : Fin 16)
      = ⟨((((cfg0.win 2).blk t).view.emb j) 0).val, ((((cfg0.win 2).blk t).view.emb j) 0).isLt⟩ :=
    Fin.ext (by show (8 * (t.val / 24) + (j 0).val) % 16 = win0_2.index t (0 : Fin 2) * 8 + 1 * (j 0).val; omega)
  show Cert.Spec.acc _ _ ⟨(8 * (t.val / 24) + (j 0).val) % 16, _⟩ (t.val % 24) * _ = Cert.Spec.acc _ _ ⟨((((cfg0.win 2).blk t).view.emb j) 0).val, _⟩ 23 * _
  rw [hB, h23]

end Cert.KernelIdeal.Accum
end
-- ==== Proof.KernTail.lean ====
/-
  The output side of the kernel program: where the pipeline writes, and what the two lines after it read.

  The output array is `[16, 128]`: row `b` belongs to image `b`.  The pipeline's window on it has blocks of
  `8 × 128`; at grid point `t` (48 points: 2 image groups × 3 channels × 8 row tiles, 24 per group) the block index is
  `(t / 24, 0)`, so the block is rows `8·(t/24) … 8·(t/24) + 7`, all 128 columns.  The block is written back exactly
  at the last point of a group, `t % 24 = 23`.
    * `cover`: every entry `(r, l)` of the array lies in the block of a point that writes back — the point
      `24·(r / 8) + 23`, whose block index on the rows is `r / 8`.
    * `v2_rest`: the result buffer is neither scoped nor an array of a window, so the region passes it by.
    * `tail_eq`: after the region, the program slices column 0 (`[0:16, 0:1]`, a `[16, 1]` array) and reshapes it
      to a vector of 16.  Entry `B` of the vector has row-major position `B`, which in `[16, 1]` is entry `(B, 0)`
      (`B·1 + 0`); the slice's offsets are `(0, 0)`, so that is entry `(B, 0)` of the output array.
-/
import proofs.«160671_j60327110640178_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Tail

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-! ## The output window's blocks -/

/-- The block index of the output window at point `t`, decided over the 48 points: `t / 24` on the rows (the image
    group), `0` on the columns. -/
theorem blockIndex : ∀ t : Fin cfg0.N, win0_2.index t (0 : Fin 2) = t.val / 24 ∧ win0_2.index t (1 : Fin 2) = 0 :=
  (by decide +kernel : ∀ t : Fin grid0.N, win0_2.index t (0 : Fin 2) = t.val / 24 ∧ win0_2.index t (1 : Fin 2) = 0)

/-- An entry of the array is in point `t`'s block iff each coordinate is in the block's range on its axis:
    from `index × extent`, `extent` many. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every entry of the output array lies in the block of a point that writes back: rows `8g … 8g + 7` in the block
    of point `24g + 23`.  For row `r` take `g = r / 8`: the point is below `48` since `r < 16`, it is `≡ 23 (mod 24)`,
    its row block index is `(24g + 23) / 24 = g` and `8g ≤ r < 8g + 8`; its column block index is `0` and the block has
    all `128` columns. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 48 := N_0
  have hlt : 24 * ((i 0).val / 8) + 23 < cfg0.N := by omega
  obtain ⟨e0, e1⟩ := blockIndex ⟨24 * ((i 0).val / 8) + 23, hlt⟩
  have e0' : win0_2.index ⟨24 * ((i 0).val / 8) + 23, hlt⟩ (0 : Fin 2) = (24 * ((i 0).val / 8) + 23) / 24 := e0
  refine ⟨⟨24 * ((i 0).val / 8) + 23, hlt⟩, (flush0_2 _).mpr (by show (24 * ((i 0).val / 8) + 23) % 24 = 23; omega), ?_⟩
  rw [mem_blk]
  intro a
  match a with
  | ⟨0, _⟩ => show win0_2.index _ (0 : Fin 2) * 8 ≤ (i 0).val ∧ (i 0).val < win0_2.index _ (0 : Fin 2) * 8 + 8; omega
  | ⟨1, _⟩ => show win0_2.index _ (1 : Fin 2) * 128 ≤ (i 1).val ∧ (i 1).val < win0_2.index _ (1 : Fin 2) * 128 + 128; omega

/-! ## The result buffer -/

/-- The result buffer is a buffer the region passes by: it is not scoped, and it is none of the three windows' arrays
    (the two argument arrays and the output array). -/
theorem v2_rest : main_v2 ∈ Pipeline.restRefs sig (cfgs 0).spec :=
  Pipeline.mem_restRefs_of main_v2 (by decide) (fun w => by fin_cases w <;> decide)

/-! ## The two lines after the region -/

/-- The output array as the region leaves it, among the buffers the later lines start from, is the final array. -/
theorem exit_v0 (c : Dev nD) (G : Buf (Elt F) ((c.tc : Thread nD τ).loc main_v0)) (hfin : (dats m 0 c).arrAt 2 cfg0.N = G) :
    Pipeline.withArrays (cfgs 0).spec c (V0 m c) (fun w => (dats m 0 c).arrAt w (cfgs 0).N) (Proc.devRef .tc main_v0) = G :=
  (Pipeline.withArrays_arr spec0 launch0.win.arr_inj c _ _ 2).trans hfin

/-- The result buffer after the two lines, as a whole vector: the reshape to `[16]` of the slice `[0:16, 0:1]` of the
    final output array. -/
theorem tail_fn (c : Dev nD) (G : Buf (Elt F) ((c.tc : Thread nD τ).loc main_v0)) (hfin : (dats m 0 c).arrAt 2 cfg0.N = G) :
    Pipeline.afterTail₀ cfgs (dats m) 0 (V0 m) [hostOps1] c main_v2
      = shapeCast S16 (extractStridedSlice S16x1 ![0, 0] G slices_S16x128_S16x1_0_0) shapeCasts_S16x1_S16 := by
  unfold Pipeline.afterTail₀
  show StableHlo.after hostOps1 _ (Proc.devRef .tc main_v2) = _
  after_results
  rw [exit_v0 m c G hfin]
  rfl

/-- The two lines after the region read column 0 of the output array, as a vector of 16: entry `B` of the result is
    entry `(B, 0)` of the array.  The reshape keeps row-major positions (`B` in `[16]` is `B·1 + 0` in `[16, 1]`), and
    the slice adds its offsets `(0, 0)`. -/
theorem tail_eq (c : Dev nD) (G : Buf (Elt F) ((c.tc : Thread nD τ).loc main_v0)) (hfin : (dats m 0 c).arrAt 2 cfg0.N = G) (B : Fin 16) :
    Pipeline.afterTail₀ cfgs (dats m) 0 (V0 m) [hostOps1] c main_v2 (ix1 B) = G (ix2 B (0 : Fin 128)) := by
  refine (congrFun (tail_fn m c G hfin) (ix1 B)).trans ?_
  refine (shapeCast_apply _ shapeCasts_S16x1_S16 (ix1 B) (ix2 B (0 : Fin 1)) ?_).trans ?_
  · rw [Shape.rowMajor_val_two, Shape.rowMajor_val_one]
    show B.val * 1 + 0 = B.val
    omega
  · exact extractStridedSlice_apply ![0, 0] G slices_S16x128_S16x1_0_0 (ix2 B (0 : Fin 1)) (ix2 B (0 : Fin 128))
      (fun a => match a with
        | ⟨0, _⟩ => by show B.val = 0 + B.val; omega
        | ⟨1, _⟩ => by show (0 : Nat) = 0 + 0; rfl)

end Cert.KernelIdeal.Tail

end
-- ==== Proof.KernRun.lean ====
/-
  The kernel program's run, read as a value.

  The points that write back cover the output array, so after the region it holds `G` (row `B`: image `B`'s
  total times the scale word, in every lane); the two host lines after the region take column 0 of it as a
  vector of 16.  That vector is `Cert.Spec.kernOut` of the argument arrays.
-/
import proofs.«160671_j60327110640178_1_alg».proof.Proof.Gen.KernelIdeal.Frame
import proofs.«160671_j60327110640178_1_alg».proof.Proof.Spec
import proofs.«160671_j60327110640178_1_alg».proof.Proof.Accum
import proofs.«160671_j60327110640178_1_alg».proof.Proof.KernTail
import Idealize.ShloMosaic.Lib.Pipeline.Value
import Idealize.ShloMosaic.Lib.StableHlo.Run
import Idealize.ShloMosaic.Lib.Tactic

set_option pp.maxSteps 5000
set_option pp.deepTerms false

noncomputable section

open Idealize.ShloMosaic Idealize.ShloMosaic.TcCoe Idealize.SL.Sem
open Idealize.ShloMosaic.Pipeline (Dat)

namespace Cert.KernelIdeal.RunValue
open Cert.KernelIdeal Cert.KernelIdeal.Gen Idealize.ShloMosaic.ValueIdx Cert.KernelIdeal.Accum Cert.KernelIdeal.Tail

variable (m : (ℓ : Loc nD τ sig) → Buf (Elt Ideal) ℓ)

/-- The write-backs cover the output array, so it ends at `G`. -/
theorem final (c : Dev nD) : (dats m 0 c).arrAt 2 cfg0.N = G m c :=
  (dats m 0 c).arrAt_eq_of_cover 2 (G m c) (fun t hf => flushed_eq m c t hf) cover

variable (ρ : Dev nD → PrngReg)

/-- The kernel program's run, read: the result vector holds, per image, the image's accumulated total times the scale
    word (`Cert.Spec.kernOut` of the argument arrays), and the arguments are unchanged. -/
theorem run : θ_run defs (onTc (τ := τ) (main (F := Ideal))) ⟨m, fun _ => 0, ρ⟩ fun r => ∀ c : Dev nD,
      r.2.mem ((c.tc : Thread nD τ).loc main_v2)
        = Cert.Spec.kernOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 v2_rest).trans (funext fun i => by
        obtain ⟨B, rfl⟩ : ∃ B : Fin 16, i = ix1 B := ⟨i 0, eq_ix1 i⟩
        rw [tail_eq m c (G m c) (final m c) B]
        rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue
end
-- ==== Proof.RefLayout.lean ====
/-
  The reference's layout operations and its two-axis sum, read at an index.

  The reference cuts every 1024 × 1024 channel into 2 × 2 patches by a reshape: the array
  [16, 3, 1024, 1024] becomes [16, 3, 512, 2, 512, 2], whose element (B, C, h, p, w, q) is the element
  (B, C, 2h + p, 2w + q) of the array — a reshape keeps the row-major position, and
      1024·(2h + p) + (2w + q) = ((h·2 + p)·512 + w)·2 + q.
  A slice along the row-parity axis then leaves a unit axis, which a second reshape
  [16, 3, 512, 1, 512, 2] → [16, 3, 512, 512, 2] drops: element (B, C, h, w, q) is element (B, C, h, 0, w, q).
  The per-channel means sum a [16, 3, 512, 512] array over its last two axes: over the extended reals the
  host's sum at (B, C) is the initial value plus the sum of the elements whose first two coordinates are
  (B, C), and those are exactly the elements (B, C, h, w), one per pair (h, w): a double sum over h and w.

  All three are stated over an arbitrary array of the literal shape, so that a proof about the program
  applies them to whatever term the program has there.
-/
import proofs.«160671_j60327110640178_1_alg».proof.Proof.Spec
import Idealize.ShloMosaic.Lib.Pipeline.Value
import Idealize.ShloMosaic.Lib.ValueIdxRank6
import Idealize.ShloMosaic.PureOps.Ideal.Laws
import Idealize.ShloMosaic.PureOps.Reduce

noncomputable section

open scoped BigOperators

namespace Cert.RefLayout

open Idealize.ShloMosaic Idealize.ShloMosaic.ValueIdx Cert.Spec

/-! ## The two reshapes -/

/-- The patch reshape [16, 3, 1024, 1024] → [16, 3, 512, 2, 512, 2] read at (B, C, h, p, w, q): the array at
    row `2h + p`, column `2w + q` of channel (B, C). Both indices have the row-major position
    `((3B + C)·1024 + 2h + p)·1024 + 2w + q`. -/
theorem reshape_patch_apply {α : Type} (x : (⟨4, ![16, 3, 1024, 1024]⟩ : Shape).Idx → α)
    (hc : (⟨4, ![16, 3, 1024, 1024]⟩ : Shape).ShapeCasts ⟨6, ![16, 3, 512, 2, 512, 2]⟩)
    (B : Fin 16) (C : Fin 3) (h : Fin 512) (p : Fin 2) (w : Fin 512) (q : Fin 2) :
    shapeCast ⟨6, ![16, 3, 512, 2, 512, 2]⟩ x hc (ix6 B C h p w q) = x (ix4 B C (two h p) (two w q)) := by
  refine shapeCast_apply x hc (ix6 B C h p w q) (ix4 B C (two h p) (two w q)) ?_
  rw [Shape.rowMajor_val_four, Shape.rowMajor_val_six]
  show ((B.val * 3 + C.val) * 1024 + (2 * h.val + p.val)) * 1024 + (2 * w.val + q.val)
    = ((((B.val * 3 + C.val) * 512 + h.val) * 2 + p.val) * 512 + w.val) * 2 + q.val
  omega

/-- The reshape [16, 3, 512, 1, 512, 2] → [16, 3, 512, 512, 2] that drops the unit axis a row-parity slice leaves,
    read at (B, C, h, w, q): the operand at (B, C, h, 0, w, q), the same row-major position
    `(((3B + C)·512 + h)·512 + w)·2 + q`. -/
theorem reshape_unit_apply {α : Type} (x : (⟨6, ![16, 3, 512, 1, 512, 2]⟩ : Shape).Idx → α)
    (hc : (⟨6, ![16, 3, 512, 1, 512, 2]⟩ : Shape).ShapeCasts ⟨5, ![16, 3, 512, 512, 2]⟩)
    (B : Fin 16) (C : Fin 3) (h : Fin 512) (w : Fin 512) (q : Fin 2) :
    shapeCast ⟨5, ![16, 3, 512, 512, 2]⟩ x hc (ix5 B C h w q) = x (ix6 B C h (0 : Fin 1) w q) := by
  refine shapeCast_apply x hc (ix5 B C h w q) (ix6 B C h (0 : Fin 1) w q) ?_
  rw [Shape.rowMajor_val_six, Shape.rowMajor_val_five]
  show ((((B.val * 3 + C.val) * 512 + h.val) * 1 + 0) * 512 + w.val) * 2 + q.val
    = (((B.val * 3 + C.val) * 512 + h.val) * 512 + w.val) * 2 + q.val
  omega

/-! ## The sum over the two patch axes -/

/-- The elements of a [16, 3, 512, 512] array that lie in channel (B, C): one per pair (h, w). -/
def chanEmb (B : Fin 16) (C : Fin 3) : Fin 512 × Fin 512 ↪ (⟨4, ![16, 3, 512, 512]⟩ : Shape).Idx :=
  ⟨fun hw => ix4 B C hw.1 hw.2, fun a b e => Prod.ext (congrFun e 2) (congrFun e 3)⟩

/-- Dropping the last two coordinates of an index leaves its first two. -/
theorem drop_val0 (hr : (⟨4, ![16, 3, 512, 512]⟩ : Shape).ReducesTo [2, 3] ⟨2, ![16, 3]⟩)
    (i : (⟨4, ![16, 3, 512, 512]⟩ : Shape).Idx) : (hr.drop i 0).val = (i 0).val :=
  Shape.ReducesTo.drop_apply_val_of_eq hr i 0 0
theorem drop_val1 (hr : (⟨4, ![16, 3, 512, 512]⟩ : Shape).ReducesTo [2, 3] ⟨2, ![16, 3]⟩)
    (i : (⟨4, ![16, 3, 512, 512]⟩ : Shape).Idx) : (hr.drop i 1).val = (i 1).val :=
  Shape.ReducesTo.drop_apply_val_of_eq hr i 1 1

/-- So the indices the sum at (B, C) runs over are exactly the (B, C, h, w). -/
theorem filter_drop (hr : (⟨4, ![16, 3, 512, 512]⟩ : Shape).ReducesTo [2, 3] ⟨2, ![16, 3]⟩) (B : Fin 16) (C : Fin 3) :
    Finset.univ.filter (fun i : (⟨4, ![16, 3, 512, 512]⟩ : Shape).Idx => hr.drop i = ix2 B C)
      = Finset.univ.map (chanEmb B C) := by
  ext i
  simp only [Finset.mem_filter, Finset.mem_univ, true_and, Finset.mem_map, chanEmb, Function.Embedding.coeFn_mk]
  constructor
  · intro hd
    -- an index that drops to (B, C) has first coordinates B and C: it is (B, C, i₂, i₃)
    have h0 : i 0 = B := Fin.ext ((drop_val0 hr i).symm.trans (congrArg Fin.val (congrFun hd 0)))
    have h1 : i 1 = C := Fin.ext ((drop_val1 hr i).symm.trans (congrArg Fin.val (congrFun hd 1)))
    refine ⟨(i 2, i 3), ?_⟩
    rw [← h0, ← h1]
    exact (eq_ix4 i).symm
  · rintro ⟨⟨h, w⟩, rfl⟩
    funext b
    match b with
    | ⟨0, _⟩ => exact Fin.ext (drop_val0 hr _)
    | ⟨1, _⟩ => exact Fin.ext (drop_val1 hr _)

/-- The host's sum of a [16, 3, 512, 512] array over its last two axes, over the extended reals, at (B, C): the
    initial value plus the double sum over the 512 × 512 positions of the channel. -/
theorem hostSum_apply (hr : (⟨4, ![16, 3, 512, 512]⟩ : Shape).ReducesTo [2, 3] ⟨2, ![16, 3]⟩)
    (x : (⟨4, ![16, 3, 512, 512]⟩ : Shape).Idx → EReal) (init : EReal) (B : Fin 16) (C : Fin 3) :
    Ideal.hostReduceAdd hr x init (ix2 B C) = init + ∑ h : Fin 512, ∑ w : Fin 512, x (ix4 B C h w) := by
  unfold Ideal.hostReduceAdd
  rw [filter_drop, Finset.sum_map, Fintype.sum_prod_type]
  rfl

end Cert.RefLayout

end
-- ==== Proof.RefValue.lean ====
/-
  The reference program's result, read element by element over the extended reals, is the specification's
  `refOut`.

  The program, stage by stage (x0, x1 the two argument arrays, c the filter coefficient's word):
    * the difference x = x0 - x1, re-laid in 2 × 2 patches: element (B, C, h, p, w, q) is x at row 2h + p,
      column 2w + q of channel (B, C), i.e. entry (p, q) of `patch x0 x1 B C h w`;
    * the rows of a patch added, and subtracted, times c: at (B, C, h, w, q) the numbers (d 0 q + d 1 q)·c and
      (d 0 q - d 1 q)·c of the patch d;
    * the columns of those subtracted resp. added, times c: at (B, C, h, w) the three detail coefficients
      `adOf d`, `daOf d`, `ddOf d`;
    * their absolute values, each summed over the 512 × 512 patches of a channel from zero and divided by
      262144.0: three means per channel (`meanOf`);
    * the three means added, and the channels summed from zero.
  The generated module reads every elementwise stage, slice and unit-axis squeeze at an index; the two patch
  reshapes and the sums over the two patch axes are read by the layout lemmas. Here the readings are chained,
  innermost stage first, each at an index written out by its coordinates.
-/
import proofs.«160671_j60327110640178_1_alg».proof.Proof.Spec
import proofs.«160671_j60327110640178_1_alg».proof.Proof.RefLayout
import proofs.«160671_j60327110640178_1_alg».proof.Proof.Gen.ReferenceIdeal.Read

noncomputable section

open scoped BigOperators

namespace Cert.RefValue

open Cert.ReferenceIdeal Cert.ReferenceIdeal.Gen Cert.ReferenceIdeal.Read
open Idealize.ShloMosaic Idealize.ShloMosaic.ValueIdx Cert.Spec Cert.RefLayout

variable (a0 a1 : (⟨S16x3x1024x1024, .f32⟩ : BufTy).Contents (Elt Ideal))
variable (B : Fin 16) (C : Fin 3) (h w : Fin 512)

/-! ## The patches -/

/-- The re-laid difference at (B, C, h, p, w, q) is entry (p, q) of patch (h, w) of channel (B, C). -/
theorem v1_at (p q : Fin 2) :
    val_main_v1 (F := Ideal) a0 a1 (ix6 B C h p w q) = patch a0 a1 B C h w p q := by
  unfold val_main_v1
  refine (reshape_patch_apply _ _ B C h p w q).trans ?_
  rw [val_main_v0_apply]
  rfl

/-- The slice of the even rows (p = 0) keeps the index, its unit coordinate read as row parity 0 … -/
theorem idx_row0 (q : Fin 2) : idx_main_v2 (ix6 B C h (0 : Fin 1) w q) = ix6 B C h (0 : Fin 2) w q := by
  funext a
  match a with
  | ⟨0, _⟩ => rfl
  | ⟨1, _⟩ => rfl
  | ⟨2, _⟩ => rfl
  | ⟨3, _⟩ => rfl
  | ⟨4, _⟩ => rfl
  | ⟨5, _⟩ => rfl
/-- … and the slice of the odd rows (p = 1) reads row parity 1. -/
theorem idx_row1 (q : Fin 2) : idx_main_v4 (ix6 B C h (0 : Fin 1) w q) = ix6 B C h (1 : Fin 2) w q := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The even rows of the patches, at (B, C, h, w, q): entry (0, q). -/
theorem v3_at (q : Fin 2) : val_main_v3 (F := Ideal) a0 a1 (ix5 B C h w q) = patch a0 a1 B C h w 0 q := by
  unfold val_main_v3
  refine (reshape_unit_apply _ _ B C h w q).trans ?_
  rw [val_main_v2_apply, idx_row0, v1_at]
/-- The odd rows: entry (1, q). -/
theorem v5_at (q : Fin 2) : val_main_v5 (F := Ideal) a0 a1 (ix5 B C h w q) = patch a0 a1 B C h w 1 q := by
  unfold val_main_v5
  refine (reshape_unit_apply _ _ B C h w q).trans ?_
  rw [val_main_v4_apply, idx_row1, v1_at]
/-- The program takes the same two slices a second time for the row differences. -/
theorem v10_at (q : Fin 2) : val_main_v10 (F := Ideal) a0 a1 (ix5 B C h w q) = patch a0 a1 B C h w 0 q := by
  unfold val_main_v10
  refine (reshape_unit_apply _ _ B C h w q).trans ?_
  rw [val_main_v9_apply, show idx_main_v9 (ix6 B C h (0 : Fin 1) w q) = ix6 B C h (0 : Fin 2) w q from idx_row0 B C h w q, v1_at]
theorem v12_at (q : Fin 2) : val_main_v12 (F := Ideal) a0 a1 (ix5 B C h w q) = patch a0 a1 B C h w 1 q := by
  unfold val_main_v12
  refine (reshape_unit_apply _ _ B C h w q).trans ?_
  rw [val_main_v11_apply, show idx_main_v11 (ix6 B C h (0 : Fin 1) w q) = ix6 B C h (1 : Fin 2) w q from idx_row1 B C h w q, v1_at]

/-! ## Rows combined -/

/-- The row sums times c: (d 0 q + d 1 q)·c. -/
theorem v8_at (q : Fin 2) :
    val_main_v8 (F := Ideal) a0 a1 (ix5 B C h w q)
      = (patch a0 a1 B C h w 0 q + patch a0 a1 B C h w 1 q) * cw := by
  rw [val_main_v8_apply, val_main_v6_apply, v3_at, v5_at, val_main_v7_apply, val_main_cst_apply]
  rfl
/-- The row differences times c: (d 0 q - d 1 q)·c. -/
theorem v15_at (q : Fin 2) :
    val_main_v15 (F := Ideal) a0 a1 (ix5 B C h w q)
      = (patch a0 a1 B C h w 0 q - patch a0 a1 B C h w 1 q) * cw := by
  rw [val_main_v15_apply, val_main_v13_apply, v10_at, v12_at, val_main_v14_apply, val_main_cst_0_apply]
  rfl

/-! ## The column slices

A column-parity slice [.., q:q+1] followed by the reshape that drops its unit axis reads (B, C, h, w) at
(B, C, h, w, q). The squeeze's index is stated through the row-major position, whose quotients and remainders
are the coordinates themselves: `(((3B + C)·512 + h)·512 + w) / 786432 = B` and so on, as h, w < 512 and C < 3. -/

theorem idx_squeeze : idx_main_v17 (ix4 B C h w) = ix5 B C h w (0 : Fin 1) := by
  have hB := B.isLt
  have hC := C.isLt
  have hh := h.isLt
  have hw := w.isLt
  funext a
  match a with
  | ⟨0, _⟩ => exact Fin.ext (by show (((B.val * 3 + C.val) * 512 + h.val) * 512 + w.val) / 786432 = B.val; omega)
  | ⟨1, _⟩ => exact Fin.ext (by show (((B.val * 3 + C.val) * 512 + h.val) * 512 + w.val) / 262144 % 3 = C.val; omega)
  | ⟨2, _⟩ => exact Fin.ext (by show (((B.val * 3 + C.val) * 512 + h.val) * 512 + w.val) / 512 % 512 = h.val; omega)
  | ⟨3, _⟩ => exact Fin.ext (by show (((B.val * 3 + C.val) * 512 + h.val) * 512 + w.val) / 1 % 512 = w.val; omega)
  | ⟨4, _⟩ => rfl

/-- The slice of the even columns reads column parity 0 … -/
theorem idx_col0 : idx_main_v16 (ix5 B C h w (0 : Fin 1)) = ix5 B C h w (0 : Fin 2) := by
  funext a
  match a with
  | ⟨0, _⟩ => rfl
  | ⟨1, _⟩ => rfl
  | ⟨2, _⟩ => rfl
  | ⟨3, _⟩ => rfl
  | ⟨4, _⟩ => rfl
/-- … and the slice of the odd columns column parity 1. -/
theorem idx_col1 : idx_main_v18 (ix5 B C h w (0 : Fin 1)) = ix5 B C h w (1 : Fin 2) := by
  funext a
  match a with
  | ⟨0, _⟩ => rfl
  | ⟨1, _⟩ => rfl
  | ⟨2, _⟩ => rfl
  | ⟨3, _⟩ => rfl
  | ⟨4, _⟩ => rfl

/-- The even and odd columns of the row sums … -/
theorem v17_at : val_main_v17 (F := Ideal) a0 a1 (ix4 B C h w) = val_main_v8 (F := Ideal) a0 a1 (ix5 B C h w 0) := by
  rw [val_main_v17_apply, idx_squeeze, val_main_v16_apply, idx_col0]
theorem v19_at : val_main_v19 (F := Ideal) a0 a1 (ix4 B C h w) = val_main_v8 (F := Ideal) a0 a1 (ix5 B C h w 1) := by
  rw [val_main_v19_apply, show idx_main_v19 (ix4 B C h w) = ix5 B C h w (0 : Fin 1) from idx_squeeze B C h w,
    val_main_v18_apply, idx_col1]
/-- … and of the row differences, which the program slices twice. -/
theorem v24_at : val_main_v24 (F := Ideal) a0 a1 (ix4 B C h w) = val_main_v15 (F := Ideal) a0 a1 (ix5 B C h w 0) := by
  rw [val_main_v24_apply, show idx_main_v24 (ix4 B C h w) = ix5 B C h w (0 : Fin 1) from idx_squeeze B C h w,
    val_main_v23_apply, show idx_main_v23 (ix5 B C h w (0 : Fin 1)) = ix5 B C h w (0 : Fin 2) from idx_col0 B C h w]
theorem v26_at : val_main_v26 (F := Ideal) a0 a1 (ix4 B C h w) = val_main_v15 (F := Ideal) a0 a1 (ix5 B C h w 1) := by
  rw [val_main_v26_apply, show idx_main_v26 (ix4 B C h w) = ix5 B C h w (0 : Fin 1) from idx_squeeze B C h w,
    val_main_v25_apply, show idx_main_v25 (ix5 B C h w (0 : Fin 1)) = ix5 B C h w (1 : Fin 2) from idx_col1 B C h w]
theorem v31_at : val_main_v31 (F := Ideal) a0 a1 (ix4 B C h w) = val_main_v15 (F := Ideal) a0 a1 (ix5 B C h w 0) := by
  rw [val_main_v31_apply, show idx_main_v31 (ix4 B C h w) = ix5 B C h w (0 : Fin 1) from idx_squeeze B C h w,
    val_main_v30_apply, show idx_main_v30 (ix5 B C h w (0 : Fin 1)) = ix5 B C h w (0 : Fin 2) from idx_col0 B C h w]
theorem v33_at : val_main_v33 (F := Ideal) a0 a1 (ix4 B C h w) = val_main_v15 (F := Ideal) a0 a1 (ix5 B C h w 1) := by
  rw [val_main_v33_apply, show idx_main_v33 (ix4 B C h w) = ix5 B C h w (0 : Fin 1) from idx_squeeze B C h w,
    val_main_v32_apply, show idx_main_v32 (ix5 B C h w (0 : Fin 1)) = ix5 B C h w (1 : Fin 2) from idx_col1 B C h w]

/-! ## The three detail coefficients and their absolute values -/

/-- Row sums, column difference: ((d00 + d10)·c - (d01 + d11)·c)·c. -/
theorem v22_at : val_main_v22 (F := Ideal) a0 a1 (ix4 B C h w) = adOf (patch a0 a1 B C h w) := by
  rw [val_main_v22_apply, val_main_v20_apply, v17_at, v19_at, v8_at, v8_at, val_main_v21_apply, val_main_cst_1_apply]
  rfl
/-- Row differences, column sum: ((d00 - d10)·c + (d01 - d11)·c)·c. -/
theorem v29_at : val_main_v29 (F := Ideal) a0 a1 (ix4 B C h w) = daOf (patch a0 a1 B C h w) := by
  rw [val_main_v29_apply, val_main_v27_apply, v24_at, v26_at, v15_at, v15_at, val_main_v28_apply, val_main_cst_2_apply]
  rfl
/-- Row differences, column difference: ((d00 - d10)·c - (d01 - d11)·c)·c. -/
theorem v36_at : val_main_v36 (F := Ideal) a0 a1 (ix4 B C h w) = ddOf (patch a0 a1 B C h w) := by
  rw [val_main_v36_apply, val_main_v34_apply, v31_at, v33_at, v15_at, v15_at, val_main_v35_apply, val_main_cst_3_apply]
  rfl

/-- Over the extended reals the host's absolute value is `max x (-x)`. -/
theorem v37_at : val_main_v37 (F := Ideal) a0 a1 (ix4 B C h w) = eabs (adOf (patch a0 a1 B C h w)) := by
  rw [val_main_v37_apply, v22_at]
  rfl
theorem v41_at : val_main_v41 (F := Ideal) a0 a1 (ix4 B C h w) = eabs (daOf (patch a0 a1 B C h w)) := by
  rw [val_main_v41_apply, v29_at]
  rfl
theorem v46_at : val_main_v46 (F := Ideal) a0 a1 (ix4 B C h w) = eabs (ddOf (patch a0 a1 B C h w)) := by
  rw [val_main_v46_apply, v36_at]
  rfl

/-! ## The means -/

/-- The host's sum over the two patch axes, from the zero word, of an array that is `f h w` at (B, C, h, w),
    divided by the divisor's word: the mean of `f`. -/
theorem mean_at (y : (⟨S16x3x512x512, .f32⟩ : BufTy).Contents (Elt Ideal)) (f : Fin 512 → Fin 512 → EReal)
    (hy : ∀ h w, y (ix4 B C h w) = f h w) :
    Ideal.div (Ideal.hostReduceAdd reducesTo_S16x3x512x512_S16x3_d2_3 y zw (ix2 B C)) npix = meanOf f := by
  rw [hostSum_apply]
  simp only [hy]
  rfl

theorem v40_at :
    val_main_v40 (F := Ideal) a0 a1 (ix2 B C) = meanOf (fun h w => eabs (adOf (patch a0 a1 B C h w))) := by
  rw [val_main_v40_apply, val_main_v39_apply, val_main_cst_5_apply]
  unfold val_main_v38
  exact mean_at B C (val_main_v37 (F := Ideal) a0 a1) _ (fun h w => v37_at a0 a1 B C h w)
theorem v44_at :
    val_main_v44 (F := Ideal) a0 a1 (ix2 B C) = meanOf (fun h w => eabs (daOf (patch a0 a1 B C h w))) := by
  rw [val_main_v44_apply, val_main_v43_apply, val_main_cst_7_apply]
  unfold val_main_v42
  exact mean_at B C (val_main_v41 (F := Ideal) a0 a1) _ (fun h w => v41_at a0 a1 B C h w)
theorem v49_at :
    val_main_v49 (F := Ideal) a0 a1 (ix2 B C) = meanOf (fun h w => eabs (ddOf (patch a0 a1 B C h w))) := by
  rw [val_main_v49_apply, val_main_v48_apply, val_main_cst_9_apply]
  unfold val_main_v47
  exact mean_at B C (val_main_v46 (F := Ideal) a0 a1) _ (fun h w => v46_at a0 a1 B C h w)

/-- The three means of a channel, added in the program's order. -/
theorem v50_at :
    val_main_v50 (F := Ideal) a0 a1 (ix2 B C)
      = meanOf (fun h w => eabs (adOf (patch a0 a1 B C h w)))
        + meanOf (fun h w => eabs (daOf (patch a0 a1 B C h w)))
        + meanOf (fun h w => eabs (ddOf (patch a0 a1 B C h w))) := by
  rw [val_main_v50_apply, val_main_v45_apply, v40_at, v44_at, v49_at]
  rfl

/-! ## The result -/

/-- The reference's result is the specification's: at image `i`, zero plus the sum over the channels of the three
    means added. -/
theorem ref_eq (a0 a1 : (⟨S16x3x1024x1024, .f32⟩ : BufTy).Contents (Elt Ideal)) :
    val_main_v51 (F := Ideal) a0 a1 = refOut a0 a1 := by
  funext i
  -- name the image: `i` is the rank-1 index with coordinate `B`
  obtain ⟨B, rfl⟩ : ∃ B : Fin 16, i = ix1 B := ⟨i 0, eq_ix1 i⟩
  rw [val_main_v51_apply]
  have hi : ∀ k : Fin 3, idx_main_v51 (ix1 B) k = ix2 B k := fun k => by
    funext a
    match a with
    | ⟨0, _⟩ => rfl
    | ⟨1, _⟩ => rfl
  -- the initial value is the zero word; each channel's term is the three means added
  refine congrArg₂ (· + ·) rfl (Finset.sum_congr rfl fun k _ => ?_)
  rw [hi, v50_at]

end Cert.RefValue

end
-- ==== Proof.Consts.lean ====
/-
  The three float words the two closed forms spell, as the extended reals they denote.

  An f32 word with sign bit 0, exponent field E (1 ≤ E ≤ 254) and fraction field T denotes the real
  (2^23 + T) · 2^(E - 127 - 23).
    * 0x00000000 : E = 0, T = 0, the subnormal 0 · 2^(-149) = 0.
    * 0x48800000 : E = 0x91 = 145, T = 0, so 2^23 · 2^(145 - 150) = 2^18 = 262144: the number of
      2×2 patches of a 1024 × 1024 image, the reference's divisor.
    * 0x36800000 : E = 0x6D = 109, T = 0, so 2^23 · 2^(109 - 150) = 2^(-18) = 1/262144: the kernel's factor.
  The filter coefficient's word is never evaluated: it is the same on both sides.
-/
import proofs.«160671_j60327110640178_1_alg».proof.Proof.Spec

noncomputable section

namespace Cert.Spec

open Idealize.ShloMosaic

/-- The zero word denotes `0`. -/
theorem zw_eq : zw = 0 := by
  simp [zw, Ideal.ofBits, Ideal.ieee]

/-- The divisor's word denotes `2^18 = 262144`. -/
theorem npix_eq : npix = ((262144 : ℝ) : EReal) := by
  simp [npix, Ideal.ofBits, Ideal.ieee, -EReal.coe_mul]; norm_num

/-- The factor's word denotes `2^(-18) = 1/262144`. -/
theorem scale_eq : scale = ((1 / 262144 : ℝ) : EReal) := by
  simp [scale, Ideal.ofBits, Ideal.ieee, -EReal.coe_mul]; norm_num

/-- Dividing by the divisor is multiplying by the factor, at the infinities too: `262144 ≠ 0`, so the quotient
    is the product with the reciprocal `1/262144`. -/
theorem div_npix (x : EReal) : Ideal.div x npix = x * scale := by
  rw [npix_eq, scale_eq]
  exact Ideal.div_coe (by norm_num) x

/-- The factor is nonnegative (it is the positive real `1/262144`). -/
theorem scale_nonneg : (0 : EReal) ≤ scale := by
  rw [scale_eq]
  exact_mod_cast (by norm_num : (0 : ℝ) ≤ 1 / 262144)

end Cert.Spec

end
-- ==== Proof.Algebra.lean ====
/-
  The kernel's closed form equals the reference's, over the extended reals.

  Fix an image `B`.  Write `A C h w = |ad|`, `D C h w = |da|`, `E C h w = |dd|` for the absolute detail
  coefficients of patch `(h, w)` of channel `C`, and `s = 2⁻¹⁸`.

    kernel:     (0 + tile 0 + tile 1 + ⋯ + tile 23) · s,   tile k = Σ_j Σ_i (A + D + E) (k/8 % 3) (64·(k % 8) + i) j
    reference:  0 + Σ_C ( (0 + Σ_h Σ_w A C h w) / 2¹⁸ + (0 + Σ_h Σ_w D C h w) / 2¹⁸ + (0 + Σ_h Σ_w E C h w) / 2¹⁸ ).

  The road:
   1. the accumulator after point `n` is the sum of the tiles `0..n` (induction; the start value is `0`);
   2. `k ↦ (k / 8, k % 8)` matches the 24 grid points with channel × row tile, and `(ht, i) ↦ 64·ht + i` matches
      row tile × row-in-tile with the 512 patch rows; sums over a commutative monoid may be re-indexed along a
      bijection and their order exchanged, so the 24 tiles add up to `Σ_C Σ_h Σ_w (A + D + E) C h w`;
   3. a sum of sums splits termwise: `Σ (A + D + E) = Σ A + Σ D + Σ E`;
   4. dividing by `2¹⁸` is multiplying by `s`; and multiplication by `s` distributes over these sums.
  Step 4 is the only place where the extended reals differ from a ring: `(x + y) · s = x · s + y · s` fails in
  general (`x = ⊤, y = ⊥`), but holds when `x, y ≥ 0`, and every summand here is an absolute value
  `max x (-x) ≥ 0` or a sum of such.  Hence no finiteness of the inputs is used anywhere.
-/
import proofs.«160671_j60327110640178_1_alg».proof.Proof.Consts
import Mathlib.Data.EReal.Operations
import Mathlib.Algebra.BigOperators.Fin
import Mathlib.Logic.Equiv.Fin.Basic

noncomputable section

open scoped BigOperators

namespace Cert.Spec

open Idealize.ShloMosaic Idealize.ShloMosaic.ValueIdx

namespace Alg

/-! ## Nonnegativity -/

/-- `|x| = max x (-x) ≥ 0`: if `0 ≤ x` the first argument is, otherwise `x ≤ 0` and `0 ≤ -x`. -/
theorem eabs_nonneg (x : EReal) : 0 ≤ eabs x := by
  rcases le_total 0 x with h | h
  · exact le_max_of_le_left h
  · exact le_max_of_le_right (EReal.neg_nonneg.mpr h)

/-- A double sum of absolute values is nonnegative. -/
theorem sum2_eabs_nonneg {m n : ℕ} (f : Fin m → Fin n → EReal) : 0 ≤ ∑ h : Fin m, ∑ w : Fin n, eabs (f h w) :=
  Finset.sum_nonneg fun h _ => Finset.sum_nonneg fun w _ => eabs_nonneg (f h w)

/-! ## Multiplication distributes over sums of nonnegative terms -/

/-- `(Σ_i f i) · c = Σ_i f i · c` when every `f i ≥ 0`, for any `c` (of either sign, or infinite).
    Induction over the index set: `(f a + Σ_s f) · c = f a · c + (Σ_s f) · c` because both summands are `≥ 0`. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-! ## Re-indexing -/

/-- A sum over `Fin (m · n)` is the double sum over `Fin m × Fin n` along `(x, y) ↦ y + n · x`. -/
theorem sum_fin_mul {M : Type} [AddCommMonoid M] (m n : ℕ) (G : Fin (m * n) → M) :
    ∑ h : Fin (m * n), G h = ∑ x : Fin m, ∑ y : Fin n, G (finProdFinEquiv (x, y)) := by
  rw [← Equiv.sum_comp finProdFinEquiv G, Fintype.sum_prod_type]

/-- The 512 patch rows are the 8 row tiles of 64 rows each: `h = 64·ht + i`. -/
theorem sum_rows (G : Fin 512 → EReal) :
    ∑ ht : Fin 8, ∑ i : Fin 64, G (trow ht i) = ∑ h : Fin 512, G h := by
  refine ((sum_fin_mul 8 64 G).trans ?_).symm
  refine Finset.sum_congr rfl fun ht _ => Finset.sum_congr rfl fun i _ => congrArg G ?_
  exact Fin.ext (show i.val + 64 * ht.val = 64 * ht.val + i.val from Nat.add_comm _ _)

/-- The 24 grid points of an image are channel × row tile: `k = 8·C + ht`. -/
theorem sum_points (f : ℕ → EReal) :
    ∑ k ∈ Finset.range 24, f k = ∑ C : Fin 3, ∑ ht : Fin 8, f (8 * C.val + ht.val) := by
  rw [← Fin.sum_univ_eq_sum_range f 24]
  refine (sum_fin_mul 3 8 fun k : Fin 24 => f k.val).trans ?_
  refine Finset.sum_congr rfl fun C _ => Finset.sum_congr rfl fun ht _ => congrArg f ?_
  exact (show ht.val + 8 * C.val = 8 * C.val + ht.val from Nat.add_comm _ _)

end Alg

open Alg

/-! ## The kernel's side -/

/-- The accumulator after grid point `n` is the sum of the tiles `0, …, n`: it starts from the zero word, which
    denotes `0`, and each point adds its tile. -/
theorem acc_eq_sum (a0 a1 : Arr) (B : Fin 16) (n : ℕ) :
    acc a0 a1 B n = ∑ k ∈ Finset.range (n + 1), tileN a0 a1 B k := by
  induction n with
  | zero => rw [acc, zw_eq, zero_add, Finset.sum_range_one]
  | succ n ih => rw [acc, ih, Finset.sum_range_succ _ (n + 1)]

/-- Grid point `8·C + ht` is channel `C`, row tile `ht`: `(8C + ht) / 8 % 3 = C` and `(8C + ht) % 8 = ht`. -/
theorem tileN_point (a0 a1 : Arr) (B : Fin 16) (C : Fin 3) (ht : Fin 8) :
    tileN a0 a1 B (8 * C.val + ht.val) = tileArr a0 a1 B C ht := by
  have hC := C.isLt
  have hht := ht.isLt
  have e1 : (⟨(8 * C.val + ht.val) / 8 % 3, Nat.mod_lt _ (by decide)⟩ : Fin 3) = C := Fin.ext (by simp only; omega)
  have e2 : (⟨(8 * C.val + ht.val) % 8, Nat.mod_lt _ (by decide)⟩ : Fin 8) = ht := Fin.ext (by simp only; omega)
  rw [tileN, e1, e2]

/-- The row tiles of a channel add up to the sum over all its patches: exchange the column sum with the
    row-in-tile sum, then join row tile and row-in-tile into the patch row. -/
theorem sum_tileArr (a0 a1 : Arr) (B : Fin 16) (C : Fin 3) :
    ∑ ht : Fin 8, tileArr a0 a1 B C ht = ∑ h : Fin 512, ∑ w : Fin 512, detOf (patch a0 a1 B C h w) := by
  have hcomm : ∀ ht : Fin 8, tileArr a0 a1 B C ht
      = ∑ i : Fin 64, ∑ w : Fin 512, detOf (patch a0 a1 B C (trow ht i) w) := fun ht => Finset.sum_comm
  rw [Finset.sum_congr rfl fun ht _ => hcomm ht]
  exact sum_rows fun h => ∑ w : Fin 512, detOf (patch a0 a1 B C h w)

/-- All 24 tiles of an image add up to the sum over its channels and patches. -/
theorem sum_tiles (a0 a1 : Arr) (B : Fin 16) :
    ∑ k ∈ Finset.range 24, tileN a0 a1 B k
      = ∑ C : Fin 3, ∑ h : Fin 512, ∑ w : Fin 512, detOf (patch a0 a1 B C h w) := by
  rw [sum_points]
  refine Finset.sum_congr rfl fun C _ => ?_
  rw [Finset.sum_congr rfl fun ht _ => tileN_point a0 a1 B C ht]
  exact sum_tileArr a0 a1 B C

/-! ## The reference's side -/

/-- A mean is the plain double sum times `2⁻¹⁸`: the sum starts from `0`, and dividing by `2¹⁸` is multiplying by
    its reciprocal. -/
theorem meanOf_eq (f : Fin 512 → Fin 512 → EReal) : meanOf f = (∑ h : Fin 512, ∑ w : Fin 512, f h w) * scale := by
  rw [meanOf, div_npix, zw_eq, zero_add]

/-! ## The two agree -/

/-- One channel: the sum of `|ad| + |da| + |dd|` over the patches, scaled, is the sum of the three scaled sums.
    The patch sum splits termwise into three sums, each nonnegative, so the factor distributes. -/
theorem channel_eq (d : Fin 512 → Fin 512 → Fin 2 → Fin 2 → EReal) :
    (∑ h : Fin 512, ∑ w : Fin 512, detOf (d h w)) * scale
      = meanOf (fun h w => eabs (adOf (d h w))) + meanOf (fun h w => eabs (daOf (d h w)))
        + meanOf (fun h w => eabs (ddOf (d h w))) := by
  have hA := sum2_eabs_nonneg fun h w => adOf (d h w)
  have hD := sum2_eabs_nonneg fun h w => daOf (d h w)
  have hE := sum2_eabs_nonneg fun h w => ddOf (d h w)
  simp only [meanOf_eq, detOf, Finset.sum_add_distrib]
  rw [EReal.right_distrib_of_nonneg (add_nonneg hA hD) hE, EReal.right_distrib_of_nonneg hA hD]

/-- Each channel's patch sum is nonnegative. -/
theorem channel_nonneg (d : Fin 512 → Fin 512 → Fin 2 → Fin 2 → EReal) :
    0 ≤ ∑ h : Fin 512, ∑ w : Fin 512, detOf (d h w) :=
  Finset.sum_nonneg fun h _ => Finset.sum_nonneg fun w _ =>
    add_nonneg (add_nonneg (eabs_nonneg _) (eabs_nonneg _)) (eabs_nonneg _)

/-- One image `B`: the scaled total of its 24 tiles is the sum over the channels of the three means.  The total is
    the sum over the channels of nonnegative patch sums, so the factor goes inside; then channel by channel. -/
theorem image_eq (a0 a1 : Arr) (B : Fin 16) :
    acc a0 a1 B 23 * scale
      = zw + ∑ C : Fin 3,
          (meanOf (fun h w => eabs (adOf (patch a0 a1 B C h w)))
            + meanOf (fun h w => eabs (daOf (patch a0 a1 B C h w)))
            + meanOf (fun h w => eabs (ddOf (patch a0 a1 B C h w)))) := by
  rw [acc_eq_sum, sum_tiles, zw_eq, zero_add,
    sum_mul_of_nonneg _ _ (fun C _ => channel_nonneg fun h w => patch a0 a1 B C h w) scale]
  exact Finset.sum_congr rfl fun C _ => channel_eq fun h w => patch a0 a1 B C h w

/-- The kernel's closed form is the reference's: image by image. -/
theorem kern_eq_ref (a0 a1 : Arr) : kernOut a0 a1 = refOut a0 a1 :=
  funext fun i => image_eq a0 a1 (i 0)

end Cert.Spec

end
-- ==== Proof.lean ====
/-
  The certificate: the wavelet-loss kernel equals its jnp reference over the extended reals.

  Both programs take two image batches `[16, 3, 1024, 1024]`, form their difference and, per image, add up the
  magnitudes of the three level-one Haar detail subbands over the channels, normalised by the 512 · 512
  coefficients of a subband.  The reference takes each subband's mean (a sum from zero divided by 262144) and
  adds the nine means of an image from zero.  The kernel walks a grid of 2 image groups × 3 channels × 8 row
  tiles; at each point it forms the same three coefficients for every 2×2 patch of the tile, adds their
  magnitudes over the tile, accumulates the 24 tiles of an image group from zero, and writes the total times
  2⁻¹⁸; two host lines then pick one lane per image.
  The detail coefficients are literally the same expressions of the same four entries on both sides; what
  differs is the bracketing of one big sum of non-negative terms and division by 2¹⁸ against multiplication by
  2⁻¹⁸, which agree on the extended reals because all summands are absolute values (no finiteness of the
  inputs is used).

  * the frames of the two kernel programs are the generated frame certificates; the reference's frame is its
    generated run with the result dropped;
  * the idealization rewrote nothing, so `preserves` is `True`;
  * `algebraic`: the kernel's run read as `Cert.Spec.kernOut` of the arguments (Proof/KernRun.lean, over
    Pieces, Blocks, Payload, Accum, KernTail), the reference's generated run read as `Cert.Spec.refOut`
    (Proof/RefValue.lean over RefLayout), and `kernOut = refOut` (Proof/Algebra.lean over Consts).
-/
import proofs.«160671_j60327110640178_1_alg».proof.Defs
import proofs.«160671_j60327110640178_1_alg».proof.Proof.Gen.Kernel
import proofs.«160671_j60327110640178_1_alg».proof.Proof.Gen.Kernel.Frame
import proofs.«160671_j60327110640178_1_alg».proof.Proof.Gen.KernelIdeal
import proofs.«160671_j60327110640178_1_alg».proof.Proof.Gen.KernelIdeal.Frame
import proofs.«160671_j60327110640178_1_alg».proof.Proof.Gen.ReferenceIdeal
import proofs.«160671_j60327110640178_1_alg».proof.Proof.Gen.ReferenceIdeal.Run
import proofs.«160671_j60327110640178_1_alg».proof.Proof.Gen.ReferenceIdeal.Read
import proofs.«160671_j60327110640178_1_alg».proof.Proof.Gen.Pre_finite_inputs
import proofs.«160671_j60327110640178_1_alg».proof.Proof.KernRun
import proofs.«160671_j60327110640178_1_alg».proof.Proof.RefValue
import proofs.«160671_j60327110640178_1_alg».proof.Proof.Algebra
import Idealize.ShloMosaic.Adequacy
import Idealize.ShloMosaic.Init

noncomputable section

namespace Cert.Proof

open Idealize.ShloMosaic Idealize.SL.Sem

/-- The word-level kernel program runs and keeps its arguments: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the two arguments, the kernel program ends with `kernOut` of them and the reference
    with `refOut` of them, and the two are one function. -/
theorem algebraic : Cert.algebraic_KernelIdeal_ReferenceIdeal := by
  intro m ρ m' ρ' _ hagree
  refine ⟨fun c => Cert.Spec.kernOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v51_eq, Cert.RefValue.ref_eq, (hagree c).1, (hagree c).2]
  exact (Cert.Spec.kern_eq_ref _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
